-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S8x2048x3 : Shape := ⟨3, ![8, 2048, 3]⟩
abbrev S2048x1x4 : Shape := ⟨3, ![2048, 1, 4]⟩
abbrev S2048 : Shape := ⟨1, ![2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S8x2048x3 : S_.BroadcastsInDim S8x2048x3 (![] : Fin 0 → Fin S8x2048x3.rank)
  reducesTo_S8x2048x3_S_d0_1_2 : S8x2048x3.ReducesTo [0, 1, 2] S_
  bcast_S_S2048x1x4 : S_.BroadcastsInDim S2048x1x4 (![] : Fin 0 → Fin S2048x1x4.rank)
  reducesTo_S2048x1x4_S_d0_1_2 : S2048x1x4.ReducesTo [0, 1, 2] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S8x4096x2048 .f32) (main_arg1 : FVec F S8x2048x3 .f32) (main_arg2 : FVec F S2048x1x4 .f32) (main_arg3 : FVec F S2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  let main_v9 : FVec F S2048x1x4 .f32 := Host.absf main_arg2
  let main_cst_2 : FVec F S_ .f32 := constant S_ .f32 0x7F800000#32
  let main_v10 : FVec F S2048x1x4 .f32 := broadcastInDim S2048x1x4 ![] bcast_S_S2048x1x4 main_cst_2
  let main_v11 : IVec S2048x1x4 1 := cmpf .olt main_v9 main_v10
  let main_c_3 : IVec S_ 1 := constantI S_ 1 1#1
  let main_v12 : IVec S_ 1 := (fun x v => Host.reduce IntOp.andi x v reducesTo_S2048x1x4_S_d0_1_2 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S8x4096x2048 : Shape := ⟨3, ![8, 4096, 2048]⟩
abbrev S8x2048x3 : Shape := ⟨3, ![8, 2048, 3]⟩
abbrev S2048x1x4 : Shape := ⟨3, ![2048, 1, 4]⟩
abbrev S2048 : Shape := ⟨1, ![2048]⟩
abbrev S2048x4 : Shape := ⟨2, ![2048, 4]⟩
abbrev S4x2048 : Shape := ⟨2, ![4, 2048]⟩
abbrev S1x2048 : Shape := ⟨2, ![1, 2048]⟩
abbrev S8x3x2048 : Shape := ⟨3, ![8, 3, 2048]⟩
abbrev S1x1024x2048 : Shape := ⟨3, ![1, 1024, 2048]⟩
abbrev S1x8x2048 : Shape := ⟨3, ![1, 8, 2048]⟩
abbrev S1x3x2048 : Shape := ⟨3, ![1, 3, 2048]⟩
abbrev S1024x2048 : Shape := ⟨2, ![1024, 2048]⟩
abbrev S8x2048 : Shape := ⟨2, ![8, 2048]⟩
abbrev S3x2048 : Shape := ⟨2, ![3, 2048]⟩
abbrev S6x2048 : Shape := ⟨2, ![6, 2048]⟩

abbrev nBuf : Space → Nat
  | .hbm => 11
  | .vmem => 12
  | .smem => 0
  | _ => 0

abbrev bufTy : (tb : Table) → Fin (tcTables nBuf tb) → BufTy
  | .hbm, ⟨0, _⟩ => ⟨S8x4096x2048, .f32⟩
  | .hbm, ⟨1, _⟩ => ⟨S8x2048x3, .f32⟩
  | .hbm, ⟨2, _⟩ => ⟨S2048x1x4, .f32⟩
  | .hbm, ⟨3, _⟩ => ⟨S2048, .f32⟩
  | .hbm, ⟨4, _⟩ => ⟨S2048x4, .f32⟩
  | .hbm, ⟨5, _⟩ => ⟨S4x2048, .f32⟩
  | .hbm, ⟨6, _⟩ => ⟨S1x2048, .f32⟩
  | .hbm, ⟨7, _⟩ => ⟨S8x3x2048, .f32⟩
  | .hbm, ⟨8, _⟩ => ⟨S8x4096x2048, .f32⟩
  | .hbm, ⟨9, _⟩ => ⟨S8x3x2048, .f32⟩
  | .hbm, ⟨10, _⟩ => ⟨S8x2048x3, .f32⟩
  | .local _ .vmem, ⟨0, _⟩ => ⟨S1x1024x2048, .f32⟩
  | .local _ .vmem, ⟨1, _⟩ => ⟨S1x1024x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x3x2048, .f32⟩
  | .local _ .vmem, ⟨5, _⟩ => ⟨S1x3x2048, .f32⟩
  | .local _ .vmem, ⟨6, _⟩ => ⟨S4x2048, .f32⟩
  | .local _ .vmem, ⟨7, _⟩ => ⟨S1x2048, .f32⟩
  | .local _ .vmem, ⟨8, _⟩ => ⟨S1x1024x2048, .f32⟩
  | .local _ .vmem, ⟨9, _⟩ => ⟨S1x1024x2048, .f32⟩
  | .local _ .vmem, ⟨10, _⟩ => ⟨S1x3x2048, .f32⟩
  | .local _ .vmem, ⟨11, _⟩ => ⟨S1x3x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c3_i32_20 : BitVec 32 := 3#32
  let v108 : BitVec 1 := Scalar.cmpi .eq arg1 c3_i32_20
  let v109 : BitVec 32 := Scalar.extui v108
  let c0_i32_21 : BitVec 32 := 0#32
  let v110 : BitVec 1 := Scalar.cmpi .ne v109 c0_i32_21
  v110

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S2048x1x4_S2048x4 : S2048x1x4.ShapeCasts S2048x4
  transposes_S2048x4_S4x2048_1_0 : S2048x4.Transposes [1, 0] S4x2048
  shapeCasts_S2048_S1x2048 : S2048.ShapeCasts S1x2048
  transposes_S8x2048x3_S8x3x2048_0_2_1 : S8x2048x3.Transposes [0, 2, 1] S8x3x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  inb_S1x2048_S1x2048_0_0 : ∀ a, (![0, 0] : Fin 2 → Nat) a + S1x2048.size a ≤ S1x2048.size a
  h_S1x2048 : 0 < S1x2048.numel
  shapeCasts_S1x2048_S2048 : S1x2048.ShapeCasts S2048
  slices_S8x2048_o5_0_S3x2048 : S8x2048.Slices ![5, 0] S3x2048
  slices_S4x2048_o3_0_S1x2048 : S4x2048.Slices ![3, 0] S1x2048
  broadcasts_S1x2048_S1024x2048 : S1x2048.Broadcasts S1024x2048
  rotates_S1024x2048_d0 : S1024x2048.Rotates 0 none
  slices_S4x2048_o0_0_S1x2048 : S4x2048.Slices ![0, 0] S1x2048
  slices_S4x2048_o1_0_S1x2048 : S4x2048.Slices ![1, 0] S1x2048
  slices_S4x2048_o2_0_S1x2048 : S4x2048.Slices ![2, 0] S1x2048
  shapeCasts_S1024x2048_S1x1024x2048 : S1024x2048.ShapeCasts S1x1024x2048
  slices_S1024x2048_o0_0_S3x2048 : S1024x2048.Slices ![0, 0] S3x2048
  concatenates_S3x2048_S3x2048_S6x2048_d0 : Shape.Concatenates [S3x2048, S3x2048] S6x2048 0
  slices_S6x2048_o0_0_S1x2048 : S6x2048.Slices ![0, 0] S1x2048
  slices_S6x2048_o1_0_S1x2048 : S6x2048.Slices ![1, 0] S1x2048
  slices_S6x2048_o2_0_S1x2048 : S6x2048.Slices ![2, 0] S1x2048
  slices_S6x2048_o3_0_S1x2048 : S6x2048.Slices ![3, 0] S1x2048
  slices_S6x2048_o4_0_S1x2048 : S6x2048.Slices ![4, 0] S1x2048
  slices_S6x2048_o5_0_S1x2048 : S6x2048.Slices ![5, 0] S1x2048
  concatenates_S1x2048_S1x2048_S1x2048_S3x2048_d0 : Shape.Concatenates [S1x2048, S1x2048, S1x2048] S3x2048 0
  inb_S1x1024x2048_S1x3x2048_0_0_0 : ∀ a, (![0, 0, 0] : Fin 3 → Nat) a + S1x3x2048.size a ≤ S1x1024x2048.size a
  shapeCasts_S3x2048_S1x3x2048 : S3x2048.ShapeCasts S1x3x2048
  slices_S1024x2048_o1021_0_S3x2048 : S1024x2048.Slices ![1021, 0] S3x2048
  transposes_S8x3x2048_S8x2048x3_0_2_1 : S8x3x2048.Transposes [0, 2, 1] S8x2048x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x4096x2048.size a
  hwx0_0 : ∀ i : grid0.Coords, EltTy.bits .f32 = 32 ∨ (Rect.block (s := S8x4096x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x2048.size a ≤ S8x4096x2048.size a
  hwx0_1 : ∀ i : grid0.Coords, EltTy.bits .f32 = 32 ∨ (Rect.block (s := S8x4096x2048) S1x8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x2048.size a ≤ S8x3x2048.size a
  hwx0_2 : ∀ i : grid0.Coords, EltTy.bits .f32 = 32 ∨ (Rect.block (s := S8x3x2048) S1x3x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x2048.size a ≤ S4x2048.size a
  hwx0_3 : ∀ i : grid0.Coords, EltTy.bits .f32 = 32 ∨ (Rect.block (s := S4x2048) S4x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x2048.size a ≤ S8x4096x2048.size a
  hwx0_5 : ∀ i : grid0.Coords, EltTy.bits .f32 = 32 ∨ (Rect.block (s := S8x4096x2048) S1x1024x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x3x2048.size a ≤ S8x3x2048.size a
  hwx0_6 : ∀ i : grid0.Coords, EltTy.bits .f32 = 32 ∨ (Rect.block (s := S8x3x2048) S1x3x2048.size (cc0_transform_6 i) (hinb0_6 i)).WholeWords (EltTy.packing .f32)

variable [Facts₀]

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1x1024x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1x3x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) | ⟨_ + 7, h⟩ => absurd h (Nat.not_lt.2 (Nat.le_add_left _ _))

class Facts : Prop extends Facts₀ where

variable [Facts]
-- ==== ReferenceIdeal.lean ====
abbrev S8x4096x2048 : Shape := ⟨3, ![8, 4096, 2048]⟩
abbrev S8x2048x3 : Shape := ⟨3, ![8, 2048, 3]⟩
abbrev S2048x1x4 : Shape := ⟨3, ![2048, 1, 4]⟩
abbrev S2048 : Shape := ⟨1, ![2048]⟩
abbrev S8x3x2048 : Shape := ⟨3, ![8, 3, 2048]⟩
abbrev S8x4099x2048 : Shape := ⟨3, ![8, 4099, 2048]⟩
abbrev S2048x4 : Shape := ⟨2, ![2048, 4]⟩
abbrev S2048x1 : Shape := ⟨2, ![2048, 1]⟩
abbrev S1x1x2048 : Shape := ⟨3, ![1, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x2048x3, .f32⟩
  | .hbm, ⟨2, _⟩ => ⟨S2048x1x4, .f32⟩
  | .hbm, ⟨3, _⟩ => ⟨S2048, .f32⟩
  | .hbm, ⟨4, _⟩ => ⟨S8x3x2048, .f32⟩
  | .hbm, ⟨5, _⟩ => ⟨S8x4099x2048, .f32⟩
  | .hbm, ⟨6, _⟩ => ⟨S2048x4, .f32⟩
  | .hbm, ⟨7, _⟩ => ⟨S8x4096x2048, .f32⟩
  | .hbm, ⟨8, _⟩ => ⟨S2048x1, .f32⟩
  | .hbm, ⟨9, _⟩ => ⟨S2048, .f32⟩
  | .hbm, ⟨10, _⟩ => ⟨S1x1x2048, .f32⟩
  | .hbm, ⟨11, _⟩ => ⟨S8x4096x2048, .f32⟩
  | .hbm, ⟨12, _⟩ => ⟨S8x4096x2048, .f32⟩
  | .hbm, ⟨13, _⟩ => ⟨S8x4096x2048, .f32⟩
  | .hbm, ⟨14, _⟩ => ⟨S2048x1, .f32⟩
  | .hbm, ⟨15, _⟩ => ⟨S2048, .f32⟩
  | .hbm, ⟨16, _⟩ => ⟨S1x1x2048, .f32⟩
  | .hbm, ⟨17, _⟩ => ⟨S8x4096x2048, .f32⟩
  | .hbm, ⟨18, _⟩ => ⟨S8x4096x2048, .f32⟩
  | .hbm, ⟨19, _⟩ => ⟨S8x4096x2048, .f32⟩
  | .hbm, ⟨20, _⟩ => ⟨S8x4096x2048, .f32⟩
  | .hbm, ⟨21, _⟩ => ⟨S2048x1, .f32⟩
  | .hbm, ⟨22, _⟩ => ⟨S2048, .f32⟩
  | .hbm, ⟨23, _⟩ => ⟨S1x1x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S2048x1, .f32⟩
  | .hbm, ⟨29, _⟩ => ⟨S2048, .f32⟩
  | .hbm, ⟨30, _⟩ => ⟨S1x1x2048, .f32⟩
  | .hbm, ⟨31, _⟩ => ⟨S8x4096x2048, .f32⟩
  | .hbm, ⟨32, _⟩ => ⟨S8x4096x2048, .f32⟩
  | .hbm, ⟨33, _⟩ => ⟨S8x4096x2048, .f32⟩
  | .hbm, ⟨34, _⟩ => ⟨S1x1x2048, .f32⟩
  | .hbm, ⟨35, _⟩ => ⟨S8x4096x2048, .f32⟩
  | .hbm, ⟨36, _⟩ => ⟨S8x4096x2048, .f32⟩
  | .hbm, ⟨37, _⟩ => ⟨S8x3x2048, .f32⟩
  | .hbm, ⟨38, _⟩ => ⟨S8x2048x3, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩

abbrev nD : Nat := 1
abbrev τ : Topo := Topo.v7x

variable {F : FTy → Type} [FloatOps F]

class Facts₀ : Prop where
  transposes_S8x2048x3_S8x3x2048_0_2_1 : S8x2048x3.Transposes [0, 2, 1] S8x3x2048
  concatenates_S8x3x2048_S8x4096x2048_S8x4099x2048_d1 : Shape.Concatenates [S8x3x2048, S8x4096x2048] S8x4099x2048 1
  shapeCasts_S2048x1x4_S2048x4 : S2048x1x4.ShapeCasts S2048x4
  slices_S8x4099x2048_S8x4096x2048_0_0_0 : S8x4099x2048.Slices ![0, 0, 0] S8x4096x2048
  slices_S2048x4_S2048x1_0_0 : S2048x4.Slices ![0, 0] S2048x1
  shapeCasts_S2048x1_S2048 : S2048x1.ShapeCasts S2048
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  slices_S8x4099x2048_S8x4096x2048_0_1_0 : S8x4099x2048.Slices ![0, 1, 0] S8x4096x2048
  slices_S2048x4_S2048x1_0_1 : S2048x4.Slices ![0, 1] S2048x1
  slices_S8x4099x2048_S8x4096x2048_0_2_0 : S8x4099x2048.Slices ![0, 2, 0] S8x4096x2048
  slices_S2048x4_S2048x1_0_2 : S2048x4.Slices ![0, 2] S2048x1
  slices_S8x4099x2048_S8x4096x2048_0_3_0 : S8x4099x2048.Slices ![0, 3, 0] S8x4096x2048
  slices_S2048x4_S2048x1_0_3 : S2048x4.Slices ![0, 3] S2048x1
  slices_S8x4099x2048_S8x3x2048_0_4096_0 : S8x4099x2048.Slices ![0, 4096, 0] S8x3x2048
  transposes_S8x3x2048_S8x2048x3_0_2_1 : S8x3x2048.Transposes [0, 2, 1] S8x2048x3

variable [Facts₀]

class Facts : Prop extends Facts₀ where

variable [Facts]
-- ==== Proof.BodyBits.lean ====
/-
  The convolution body run once, symbolically, on any seven whole staging memrefs.

  One grid point (b, s) handles the 1024 rows [1024 s, 1024 s + 1024) of batch b. The body reads its five
  inputs — the tile of x, the eight rows of x just before the tile, the three cached rows, the four tap
  rows of the weight and the bias row —, stores the whole output tile, then stores its first three rows again,
  and, at the last tile of the sequence only (s = 3), stores the tile's last three rows into the new cache.
  The two theorems below are that run in the two cases of the one conditional: what each output memref is
  left holding is the list of pieces the run finds (newest first), over whatever it held before.
-/
import proofs.«137967_j58746562674739_2_alg».proof.Proof.Gen.Kernel.Launch
import proofs.«137967_j58746562674739_2_alg».proof.Proof.Gen.Kernel.Skeleton
import proofs.«137967_j58746562674739_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The one conditional of the body: the point is the last tile of its sequence. -/
abbrev lastTile (i : grid0.Coords) : Prop := k0_cond1 i = 1#1

/-- It holds at the points 3, 7, 11, … of the 32 (row-major over 8 batches × 4 tiles). -/
theorem lastTile_iff : ∀ t : Fin cfg0.N, lastTile (grid0.coords t) ↔ t.val % 4 = 3 :=
  (by decide +kernel : ∀ t : Fin grid0.N, lastTile (grid0.coords t) ↔ t.val % 4 = 3)

set_option maxHeartbeats 4000000 in
/-- The body at a last tile: the inputs are handed back as found, the output tile's memref and the new
    cache's memref each hold the pieces the run stored. -/
noncomputable def runLast (c : Dev nD) (i : grid0.Coords)
    (arg2 : Memref sig .tc .vmem S1x1024x2048 .f32) (harg2 : arg2.IsWhole) (arg3 : Memref sig .tc .vmem S1x8x2048 .f32) (harg3 : arg3.IsWhole)
    (arg4 : Memref sig .tc .vmem S1x3x2048 .f32) (harg4 : arg4.IsWhole) (arg5 : Memref sig .tc .vmem S4x2048 .f32) (harg5 : arg5.IsWhole)
    (arg6 : Memref sig .tc .vmem S1x2048 .f32) (harg6 : arg6.IsWhole) (arg7 : Memref sig .tc .vmem S1x1024x2048 .f32) (harg7 : arg7.IsWhole)
    (arg8 : Memref sig .tc .vmem S1x3x2048 .f32) (harg8 : arg8.IsWhole) (hc : lastTile i)
    (x0 : Vec F S1x1024x2048 .f32) (x1 : Vec F S1x8x2048 .f32) (x2 : Vec F S1x3x2048 .f32) (x3 : Vec F S4x2048 .f32) (x4 : Vec F S1x2048 .f32) :
    Σ' (L7 : List (View.Piece (Elt F) S1x1024x2048 .f32)), { L8 : List (View.Piece (Elt F) S1x3x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E (cc0__conv_kernel i arg2 harg2 arg3 harg3 arg4 harg4 arg5 harg5 arg6 harg6 arg7 harg7 arg8 harg8) K } := by
  refine ⟨?_, ?_, fun E K => ?run⟩
  case run =>
    simp only [cc0__conv_kernel_eq_skeleton]; unfold cc0__conv_kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
    obtain rfl := harg2.eq_unread hf0; obtain rfl := harg3.eq_unread hf1; obtain rfl := harg4.eq_unread hf2
    obtain rfl := harg5.eq_unread hf3; obtain rfl := harg6.eq_unread hf4
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists f7; iexact H7
    iexists f8; iexact H8

set_option maxHeartbeats 4000000 in
/-- The body at any other tile: the inputs and the new cache's memref are handed back as found, the output
    tile's memref holds the pieces the run stored. -/
noncomputable def runRest (c : Dev nD) (i : grid0.Coords)
    (arg2 : Memref sig .tc .vmem S1x1024x2048 .f32) (harg2 : arg2.IsWhole) (arg3 : Memref sig .tc .vmem S1x8x2048 .f32) (harg3 : arg3.IsWhole)
    (arg4 : Memref sig .tc .vmem S1x3x2048 .f32) (harg4 : arg4.IsWhole) (arg5 : Memref sig .tc .vmem S4x2048 .f32) (harg5 : arg5.IsWhole)
    (arg6 : Memref sig .tc .vmem S1x2048 .f32) (harg6 : arg6.IsWhole) (arg7 : Memref sig .tc .vmem S1x1024x2048 .f32) (harg7 : arg7.IsWhole)
    (arg8 : Memref sig .tc .vmem S1x3x2048 .f32) (harg8 : arg8.IsWhole) (hc : ¬lastTile i)
    (x0 : Vec F S1x1024x2048 .f32) (x1 : Vec F S1x8x2048 .f32) (x2 : Vec F S1x3x2048 .f32) (x3 : Vec F S4x2048 .f32) (x4 : Vec F S1x2048 .f32) :
    { L7 : List (View.Piece (Elt F) S1x1024x2048 .f32) //
      ∀ (E : Set ℕ) (K : PUnit → sProp 𝕄) (R8 : sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ R8
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L7)
                ∗ R8) -∗ K ⟨⟩))
          ⊢ wp frame (wpE (defs₀ (F := F)) Variants.none c none) E (cc0__conv_kernel i arg2 harg2 arg3 harg3 arg4 harg4 arg5 harg5 arg6 harg6 arg7 harg7 arg8 harg8) K } := by
  refine ⟨?_, fun E K R8 => ?run⟩
  case run =>
    simp only [cc0__conv_kernel_eq_skeleton]; unfold cc0__conv_kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, H8, Hk⟩
    obtain rfl := harg2.eq_unread hf0; obtain rfl := harg3.eq_unread hf1; obtain rfl := harg4.eq_unread hf2
    obtain rfl := harg5.eq_unread hf3; obtain rfl := harg6.eq_unread hf4
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists f7; iexact H7
    iexact H8

end Cert.Kernel.Hand

end
-- ==== Proof.DataBits.lean ====
/-
  The proof data of the convolution's one pipeline, and what each staging buffer holds when the body runs.

  The pipeline has seven windows: the tile of x (0), the eight rows of x before the tile (1: the same array as
  window 0, which is why that array is held in two halves), the three cached rows (2), the four weight rows (3),
  the bias row (4), the output tile (5) and the new cache (6). Every input buffer holds, at every point, the block
  of its array that the point's index names. The output tile is stored whole and then its first three rows
  again, so what it holds afterwards is the later store on those rows and the earlier one elsewhere. The new
  cache is stored at the last tile of each sequence only; at the other points its buffer is handed back
  untouched and is not written back.
-/
import proofs.«137967_j58746562674739_2_alg».proof.Proof.BodyBits
import Idealize.ShloMosaic.Lib.Pipeline.Regions
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## What the body stores, over the blocks it loads -/

theorem zeros3 : (![0, 0, 0] : Fin 3 → ℕ) = fun _ => 0 := by funext a; fin_cases a <;> rfl
theorem zeros2 : (![0, 0] : Fin 2 → ℕ) = fun _ => 0 := by funext a; fin_cases a <;> rfl

/-- The three rows before the tile: the cached rows at the first tile of a sequence, else the last three of the
    eight rows of x before the tile. -/
abbrev prevRows (i : grid0.Coords) (x1 : Vec F S1x8x2048 .f32) (x2 : Vec F S1x3x2048 .f32) : FVec F S3x2048 .f32 := k0_pay6 i x1 x2

/-- The stores into the output tile, newest first: its first three rows (each from the six-row window made of
    the three rows before the tile and the tile's first three), then the whole tile by rotations. -/
def tilePieces (i : grid0.Coords) (x0 : Vec F S1x1024x2048 .f32) (x1 : Vec F S1x8x2048 .f32) (x2 : Vec F S1x3x2048 .f32)
    (x3 : Vec F S4x2048 .f32) (x4 : Vec F S1x2048 .f32) : List (View.Piece (Elt F) S1x1024x2048 .f32) :=
  [⟨Rect.unit ![0, 0, 0] S1x3x2048.size inb_S1x1024x2048_S1x3x2048_0_0_0,
      k0_pay1 (k0_pay4 x3) (k0_pay5 x4) (k0_pay10 (k0_pay3 x0) (prevRows i x1 x2))
        (k0_pay11 (k0_pay3 x0) (k0_pay4 x3) (k0_pay5 x4) (prevRows i x1 x2))
        (k0_pay12 (k0_pay3 x0) (k0_pay4 x3) (k0_pay5 x4) (prevRows i x1 x2))
        (k0_pay13 (k0_pay3 x0) (k0_pay4 x3) (prevRows i x1 x2))⟩,
   ⟨Rect.unit ![0, 0, 0] S1x1024x2048.size inb_S1x1024x2048_S1x1024x2048_0_0_0,
      k0_pay9 (k0_pay7 x0 x3) (k0_pay8 x4)⟩]

/-- They cover the tile (the older one alone does). -/
theorem tilePieces_cover (i : grid0.Coords) (x0 : Vec F S1x1024x2048 .f32) (x1 : Vec F S1x8x2048 .f32) (x2 : Vec F S1x3x2048 .f32)
    (x3 : Vec F S4x2048 .f32) (x4 : Vec F S1x2048 .f32) (y : S1x1024x2048.Idx) :
    ∃ p ∈ tilePieces i x0 x1 x2 x3 x4, y ∈ p.1.set :=
  ⟨_, List.mem_cons_of_mem _ (List.mem_singleton_self _), View.mem_set_unit_zero zeros3 inb_S1x1024x2048_S1x1024x2048_0_0_0 y⟩

/-- What the output tile's buffer holds after the body. -/
def tileOut (i : grid0.Coords) (x0 : Vec F S1x1024x2048 .f32) (x1 : Vec F S1x8x2048 .f32) (x2 : Vec F S1x3x2048 .f32)
    (x3 : Vec F S4x2048 .f32) (x4 : Vec F S1x2048 .f32) : Vec F S1x1024x2048 .f32 :=
  View.canon (tilePieces i x0 x1 x2 x3 x4)

/-- The one store into the new cache: the tile's last three rows. -/
def cachePieces (x0 : Vec F S1x1024x2048 .f32) : List (View.Piece (Elt F) S1x3x2048 .f32) :=
  [⟨Rect.unit ![0, 0, 0] S1x3x2048.size inb_S1x3x2048_S1x3x2048_0_0_0, k0_pay2 (k0_pay3 x0)⟩]

theorem cachePieces_cover (x0 : Vec F S1x1024x2048 .f32) (y : S1x3x2048.Idx) : ∃ p ∈ cachePieces x0, y ∈ p.1.set :=
  ⟨_, List.mem_singleton_self _, View.mem_set_unit_zero zeros3 inb_S1x3x2048_S1x3x2048_0_0_0 y⟩

/-- What the new cache's buffer holds after the body at a last tile. -/
def cacheOut (x0 : Vec F S1x1024x2048 .f32) : Vec F S1x3x2048 .f32 := View.canon (cachePieces x0)

section Found
variable (c : Dev nD) (i : grid0.Coords)
    (arg2 : Memref sig .tc .vmem S1x1024x2048 .f32) (harg2 : arg2.IsWhole) (arg3 : Memref sig .tc .vmem S1x8x2048 .f32) (harg3 : arg3.IsWhole)
    (arg4 : Memref sig .tc .vmem S1x3x2048 .f32) (harg4 : arg4.IsWhole) (arg5 : Memref sig .tc .vmem S4x2048 .f32) (harg5 : arg5.IsWhole)
    (arg6 : Memref sig .tc .vmem S1x2048 .f32) (harg6 : arg6.IsWhole) (arg7 : Memref sig .tc .vmem S1x1024x2048 .f32) (harg7 : arg7.IsWhole)
    (arg8 : Memref sig .tc .vmem S1x3x2048 .f32) (harg8 : arg8.IsWhole)
    (x0 : Vec F S1x1024x2048 .f32) (x1 : Vec F S1x8x2048 .f32) (x2 : Vec F S1x3x2048 .f32) (x3 : Vec F S4x2048 .f32) (x4 : Vec F S1x2048 .f32)

/-- The pieces the run found at a last tile are these (a load through the whole rectangle reads the contents). -/
theorem runLast_tile (hc : lastTile i) :
    (runLast (F := F) c i arg2 harg2 arg3 harg3 arg4 harg4 arg5 harg5 arg6 harg6 arg7 harg7 arg8 harg8 hc x0 x1 x2 x3 x4).1 = tilePieces i x0 x1 x2 x3 x4 := by
  unfold runLast tilePieces; dsimp only; sl_unfold_run_names
  simp only [View.readAt_eq_ld, Memref.IsWhole.read_unread, View.ld_unit_zero (S := S1x1024x2048) zeros3, View.ld_unit_zero (S := S1x8x2048) zeros3,
    View.ld_unit_zero (S := S1x3x2048) zeros3, View.ld_unit_zero (S := S4x2048) zeros2, View.ld_unit_zero (S := S1x2048) zeros2]

theorem runLast_cache (hc : lastTile i) :
    (runLast (F := F) c i arg2 harg2 arg3 harg3 arg4 harg4 arg5 harg5 arg6 harg6 arg7 harg7 arg8 harg8 hc x0 x1 x2 x3 x4).2.1 = cachePieces x0 := by
  unfold runLast cachePieces; dsimp only; sl_unfold_run_names
  simp only [View.readAt_eq_ld, Memref.IsWhole.read_unread, View.ld_unit_zero (S := S1x1024x2048) zeros3]

theorem runRest_tile (hc : ¬lastTile i) :
    (runRest (F := F) c i arg2 harg2 arg3 harg3 arg4 harg4 arg5 harg5 arg6 harg6 arg7 harg7 arg8 harg8 hc x0 x1 x2 x3 x4).1 = tilePieces i x0 x1 x2 x3 x4 := by
  unfold runRest tilePieces; dsimp only; sl_unfold_run_names
  simp only [View.readAt_eq_ld, Memref.IsWhole.read_unread, View.ld_unit_zero (S := S1x1024x2048) zeros3, View.ld_unit_zero (S := S1x8x2048) zeros3,
    View.ld_unit_zero (S := S1x3x2048) zeros3, View.ld_unit_zero (S := S4x2048) zeros2, View.ld_unit_zero (S := S1x2048) zeros2]

end Found

/-! ## The arrays as the region finds them, and the windows' blocks -/

variable (m : (ℓ : Loc nD τ sig) → Buf (Elt F) ℓ)

/-- Core `c`'s buffers at launch, as a valuation; -/
abbrev V₀ (c : Dev nD) : Valuation τ sig (Elt F) := fun b => m ((c : Dev nD), b)
/-- and when the region is entered: the weight reshaped and transposed to tap-major, the bias as a row, the cache
    transposed to row-major have been written beside the arguments. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data on core `c`: the arrays as the region finds them; after the body each input's buffer at its
    block, the output tile's at `tileOut` of the point's blocks, the new cache's at `cacheOut` of the tile;
    no invariant beyond the scoped rest; the array of x held in two halves by the two windows on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOut (grid0.coords t) (iblk m c 0 t) (iblk m c 1 t) (iblk m c 2 t) (iblk m c 3 t) (iblk m c 4 t)
    | ⟨6, _⟩ => cacheOut (iblk m c 0 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = tileOut (grid0.coords t) (iblk m c 0 t) (iblk m c 1 t) (iblk m c 2 t) (iblk m c 3 t) (iblk m c 4 t) := by dsimp only [dats]
theorem after0_6 (c : Dev nD) (t : Fin cfg0.N) : (dats m 0 c).after 6 t = cacheOut (iblk m c 0 t) := by dsimp only [dats]

/-- An input's buffer holds its block at every point, fetched there or not: where it is not fetched its block
    index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## Where the windows are idle, and the staging memrefs at a point -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- The new cache is stored at the last tiles, -/
theorem live0_6 : ∀ t : Fin cfg0.N, lastTile (grid0.coords t) → cfg0.idle 6 (grid0.coords t) = false := by decide +kernel
/-- left untouched at the others, -/
theorem idle0_6 : ∀ t : Fin cfg0.N, ¬lastTile (grid0.coords t) → cfg0.idle 6 (grid0.coords t) = true := by decide +kernel
/-- and not written back there. -/
theorem noFlush0_6 : ∀ t : Fin cfg0.N, ¬lastTile (grid0.coords t) → (cfg0.win 6).flush t = false := by decide +kernel

abbrev ms0 (t : Fin cfg0.N) : Memref sig .tc .vmem S1x1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x3x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x3x2048 .f32 := win0_6.stage (cfg0.slots t 6)
abbrev hs6 (t : Fin cfg0.N) : (ms6 t).IsWhole := hstage0_6 ((cfg0.slots t 6).cast nbuf0_6)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: each input's buffer holds its block; at a last tile the run stores both outputs, and
    what each then reads is the canon of its pieces; at another tile it stores the output tile alone and hands
    the new cache's buffer back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = (dats m 0 c).Φ t.castSucc from rfl]
  rw [show (dats m 0 c).leavesExact 0 t = owns (c : Thread nD τ) (ms0 t) fullShare ((dats m 0 c).after 0 t) from by
    unfold Dat.leavesExact; rw [live0_0 t], after0_0]
  rw [show (dats m 0 c).leavesExact 1 t = owns (c : Thread nD τ) (ms1 t) fullShare ((dats m 0 c).after 1 t) from by
    unfold Dat.leavesExact; rw [live0_1 t], after0_1]
  rw [show (dats m 0 c).leavesExact 2 t = owns (c : Thread nD τ) (ms2 t) fullShare ((dats m 0 c).after 2 t) from by
    unfold Dat.leavesExact; rw [live0_2 t], after0_2]
  rw [show (dats m 0 c).leavesExact 3 t = owns (c : Thread nD τ) (ms3 t) fullShare ((dats m 0 c).after 3 t) from by
    unfold Dat.leavesExact; rw [live0_3 t], after0_3]
  rw [show (dats m 0 c).leavesExact 4 t = owns (c : Thread nD τ) (ms4 t) fullShare ((dats m 0 c).after 4 t) from by
    unfold Dat.leavesExact; rw [live0_4 t], after0_4]
  rw [show (dats m 0 c).leavesExact 5 t = owns (c : Thread nD τ) (ms5 t) fullShare ((dats m 0 c).after 5 t) from by
    unfold Dat.leavesExact; rw [live0_5 t], after0_5]
  by_cases hc : lastTile (grid0.coords t)
  · rw [show (dats m 0 c).leavesExact 6 t = owns (c : Thread nD τ) (ms6 t) fullShare ((dats m 0 c).after 6 t) from by
      unfold Dat.leavesExact; rw [live0_6 t hc], after0_6]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLast c (grid0.coords t) _ _ _ _ _ _ _ _ _ _ _ _ _ _ hc (iblk m c 0 t) (iblk m c 1 t) (iblk m c 2 t) (iblk m c 3 t) (iblk m c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; rw [runLast_tile]; exact View.read_writes_eq_canon _ _ _ (tilePieces_cover _ _ _ _ _ _)
    unfold owns; iexists _; isplitr
    swap; · iexact H6
    ipureintro; rw [runLast_cache]; exact View.read_writes_eq_canon _ _ _ (cachePieces_cover _)
  · rw [Dat.leavesExact_idle (dats m 0 c) 6 t (idle0_6 t hc) (noFlush0_6 t hc)]
    iintro ⟨HΦ, Ho, ⟨%d0, H0⟩, ⟨%d1, H1⟩, ⟨%d2, H2⟩, ⟨%d3, H3⟩, ⟨%d4, H4⟩, ⟨%d5, H5⟩, H6⟩
    iapply ((runRest c (grid0.coords t) _ _ _ _ _ _ _ _ _ _ _ _ _ _ hc (iblk m c 0 t) (iblk m c 1 t) (iblk m c 2 t) (iblk m c 3 t) (iblk m c 4 t)).2 Set.univ _
      (iprop(∃ d, owns (c : Thread nD τ) (ms6 t) fullShare ((dats m 0 c).before 6 t d))))
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; rw [runRest_tile]; exact View.read_writes_eq_canon _ _ _ (tilePieces_cover _ _ _ _ _ _)
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LaunchBits.lean ====
/-
  The launch of the convolution program: @main as three segments — the four host operations that lay the
  weight, the bias and the cache out for the kernel; the kernel region; the one host operation that transposes the
  new cache back — and what every final memory holds.

  The array of x is read through two windows (the tile, and the eight rows before it), so on entering the
  region its buffer's full share is cut in two halves, one per window; both halves come back unchanged, since an
  input array is never written. The output array ends at the pipeline's account of its write-backs, the new
  cache's array likewise, and the last host operation's result is the transpose of that.
-/
import proofs.«137967_j58746562674739_2_alg».proof.Proof.DataBits
import Idealize.ShloMosaic.Lib.Pipeline.Regions
import Idealize.ShloMosaic.Lib.Pipeline.Frame
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays as points-tos -/

/-- The pipeline's arrays at contents `G`, window by window: x in two halves, the rest whole. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v3) ↦{fullShare} G 2) ∗ (((c : Thread nD τ).loc main_v1) ↦{fullShare} G 3)
          ∗ (((c : Thread nD τ).loc main_v2) ↦{fullShare} G 4) ∗ (((c : Thread nD τ).loc main_v4_0) ↦{fullShare} G 5)
          ∗ (((c : Thread nD τ).loc main_v4_1) ↦{fullShare} G 6)) := by
  unfold Dat.arrays
  rw [bigSep_W0]
  have h0 : ((cfg0.win 0).arr.view.loc (c : Thread nD τ) ↦[(cfg0.win 0).arr.view.set]{(dats m 0 c).share 0} G 0 : sProp 𝕄)
      = ((c : Thread nD τ).loc main_arg0) ↦{fullShare.left} G 0 := by
    rw [(arr_whole0 0).set_eq_univ]; rfl
  have h1 : ((cfg0.win 1).arr.view.loc (c : Thread nD τ) ↦[(cfg0.win 1).arr.view.set]{(dats m 0 c).share 1} G 1 : sProp 𝕄)
      = ((c : Thread nD τ).loc main_arg0) ↦{fullShare.right} G 1 := by
    rw [(arr_whole0 1).set_eq_univ]; rfl
  have h2 : ((cfg0.win 2).arr.view.loc (c : Thread nD τ) ↦[(cfg0.win 2).arr.view.set]{(dats m 0 c).share 2} G 2 : sProp 𝕄)
      = ((c : Thread nD τ).loc main_v3) ↦{fullShare} G 2 := by
    rw [(arr_whole0 2).set_eq_univ]; rfl
  have h3 : ((cfg0.win 3).arr.view.loc (c : Thread nD τ) ↦[(cfg0.win 3).arr.view.set]{(dats m 0 c).share 3} G 3 : sProp 𝕄)
      = ((c : Thread nD τ).loc main_v1) ↦{fullShare} G 3 := by
    rw [(arr_whole0 3).set_eq_univ]; rfl
  have h4 : ((cfg0.win 4).arr.view.loc (c : Thread nD τ) ↦[(cfg0.win 4).arr.view.set]{(dats m 0 c).share 4} G 4 : sProp 𝕄)
      = ((c : Thread nD τ).loc main_v2) ↦{fullShare} G 4 := by
    rw [(arr_whole0 4).set_eq_univ]; rfl
  have h5 : ((cfg0.win 5).arr.view.loc (c : Thread nD τ) ↦[(cfg0.win 5).arr.view.set]{(dats m 0 c).share 5} G 5 : sProp 𝕄)
      = ((c : Thread nD τ).loc main_v4_0) ↦{fullShare} G 5 := by
    rw [(arr_whole0 5).set_eq_univ]; rfl
  have h6 : ((cfg0.win 6).arr.view.loc (c : Thread nD τ) ↦[(cfg0.win 6).arr.view.set]{(dats m 0 c).share 6} G 6 : sProp 𝕄)
      = ((c : Thread nD τ).loc main_v4_1) ↦{fullShare} G 6 := by
    rw [(arr_whole0 6).set_eq_univ]; rfl
  rw [h0, h1, h2, h3, h4, h5, h6]

/-- The distinct buffers behind the windows' arrays, each whole. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v3) ↦{fullShare} W main_v3)
          ∗ (((c : Thread nD τ).loc main_v1) ↦{fullShare} W main_v1) ∗ (((c : Thread nD τ).loc main_v2) ↦{fullShare} W main_v2)
          ∗ (((c : Thread nD τ).loc main_v4_0) ↦{fullShare} W main_v4_0) ∗ (((c : Thread nD τ).loc main_v4_1) ↦{fullShare} W main_v4_1)) := by
  unfold Pipeline.arrBufs
  exact bigSep_eq_bigSepL_of_eq [main_arg0, main_v3, main_v1, main_v2, main_v4_0, main_v4_1] (by decide) (by decide) _

/-- The unscoped buffers that are no window's array, at contents `W`. -/
abbrev restZ (c : Dev nD) (W : (b : Ref sig .tc) → Buf (Elt F) ((c : Thread nD τ).loc b)) : sProp 𝕄 :=
  iprop((((c : Thread nD τ).loc main_arg1) ↦{fullShare} W main_arg1) ∗ (((c : Thread nD τ).loc main_arg2) ↦{fullShare} W main_arg2)
    ∗ (((c : Thread nD τ).loc main_arg3) ↦{fullShare} W main_arg3) ∗ (((c : Thread nD τ).loc main_v0) ↦{fullShare} W main_v0)
    ∗ (((c : Thread nD τ).loc main_v5) ↦{fullShare} W main_v5))

/-- ENTRY: the core's unscoped buffers as the host prefix left them are the pipeline's arrays at their entry
    contents — the buffer of x cut in its two halves — and the rest. -/
theorem entry_split (c : Dev nD) :
    (unscopedBufs c (V m c) : sProp 𝕄) ⊢ iprop((dats m 0 c).arrays ((dats m 0 c).arrAt · 0) ∗ restZ c (V m c)) := by
  rw [Pipeline.unscopedBufs_split₀ cfgs 0 winFacts₀0.arr_unscoped c (V m c), unscopedRest0_eq, arrBufs_chain, arrays_chain]
  iintro ⟨⟨H0, H3, H1, H2, H40, H41⟩, Hrest⟩
  ihave H0' := (pointsTo_share (PosShare.mem_left_op_right fullShare)).1 $$ H0
  icases H0' with ⟨H0a, H0b⟩
  isplitr [Hrest]
  · isplitl [H0a]; · iexact H0a
    isplitl [H0b]; · iexact H0b
    isplitl [H3]; · iexact H3
    isplitl [H1]; · iexact H1
    isplitl [H2]; · iexact H2
    isplitl [H40]; · iexact H40
    iexact H41
  · iexact Hrest

/-! ## The segments of @main -/

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
/-- What rides beside the buffers through the host operations: the core's `owes`. -/
abbrev R (c : Dev nD) : sProp 𝕄 := iprop(∃ W, owes (c : Thread nD τ) (0 : CellTallies nD τ sig Unit) W)

/-- THE FIRST HOST SEGMENT: the four operations before the region, over all the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The two buffers the last host operation touches. -/
def S1 : Finset (DevRef τ sig) := {Proc.devRef .tc main_v4_1, Proc.devRef .tc main_v5}

/-- The buffers when the region is left, as far as the last operation reads them: the new cache's array at the
    pipeline's account of its write-backs, every other buffer as the host prefix left it. -/
def V1 (c : Dev nD) : Valuation τ sig (Elt F) := fun b =>
  if h : Proc.devRef .tc main_v4_1 = b then cast (congrArg (fun b' : DevRef τ sig => b'.ty.Contents (Elt F)) h) ((dats m 0 c).arrAt 6 cfg0.N)
  else StableHlo.after hostOps0 (V₀ m c) b

theorem V1_cache (c : Dev nD) : V1 m c (Proc.devRef .tc main_v4_1) = (dats m 0 c).arrAt 6 cfg0.N := by
  unfold V1; rw [dif_pos rfl]; rfl

theorem V1_v5 (c : Dev nD) : V1 m c (Proc.devRef .tc main_v5) = V m c main_v5 := by
  unfold V1; rw [dif_neg (StableHlo.devRef_ne_of_ne (by decide))]

/-- What bypasses the last host operation: the other arrays at their final contents, the arguments and the
    reshaped weight as the host prefix left them, the core's `owes`. -/
abbrev R1 (c : Dev nD) : sProp 𝕄 :=
  iprop((((c : Thread nD τ).loc main_arg0) ↦{fullShare.left} (dats m 0 c).arrAt 0 cfg0.N) ∗ (((c : Thread nD τ).loc main_arg0) ↦{fullShare.right} (dats m 0 c).arrAt 1 cfg0.N)
    ∗ (((c : Thread nD τ).loc main_v3) ↦{fullShare} (dats m 0 c).arrAt 2 cfg0.N) ∗ (((c : Thread nD τ).loc main_v1) ↦{fullShare} (dats m 0 c).arrAt 3 cfg0.N)
    ∗ (((c : Thread nD τ).loc main_v2) ↦{fullShare} (dats m 0 c).arrAt 4 cfg0.N) ∗ (((c : Thread nD τ).loc main_v4_0) ↦{fullShare} (dats m 0 c).arrAt 5 cfg0.N)
    ∗ (((c : Thread nD τ).loc main_arg1) ↦{fullShare} V m c main_arg1) ∗ (((c : Thread nD τ).loc main_arg2) ↦{fullShare} V m c main_arg2)
    ∗ (((c : Thread nD τ).loc main_arg3) ↦{fullShare} V m c main_arg3) ∗ (((c : Thread nD τ).loc main_v0) ↦{fullShare} V m c main_v0)
    ∗ R c)

/-- THE LAST HOST SEGMENT: the transpose of the new cache, over its two buffers. -/
def seg1 : Pipeline.HostSeg (Name := ℕ) (U := UR sig nD τ) (pcfgs (F := F)) defs₀ 𝒱₀ L lv :=
  Pipeline.HostSeg.ofOps _ _ _ _ _ S1 hostOps1
    (by intro op h; rcases List.mem_singleton.mp h with rfl; rw [StableHlo.unary_bufs]; exact Finset.Subset.refl _)
    (by intro _ h; (repeat (cases h with | head => rfl | tail _ h => ?_)); exact nomatch h) (V1 m) (R1 m)

/-! ## The region -/

theorem v41_not_mem : (Proc.devRef .tc main_v4_1 : DevRef τ sig) ∉ ({Proc.devRef .tc main_v5} : Finset (DevRef τ sig)) :=
  Finset.notMem_singleton.mpr (StableHlo.devRef_ne_of_ne (by decide))

/-- The two buffers of the last host operation, held at a valuation, one by one. -/
theorem held_S1 (c : Dev nD) (W : Valuation τ sig (Elt F)) :
    (StableHlo.held (c : Thread nD τ) S1 W : sProp 𝕄)
      = iprop((((c : Thread nD τ).1, Proc.devRef .tc main_v4_1) ↦{fullShare} W (Proc.devRef .tc main_v4_1))
          ∗ (((c : Thread nD τ).1, Proc.devRef .tc main_v5) ↦{fullShare} W (Proc.devRef .tc main_v5))) := by
  unfold StableHlo.held S1
  rw [bigSep_insert v41_not_mem, bigSep_singleton]
  rfl

set_option backward.isDefEq.respectTransparency.types false in
/-- THE REGION: entered from what the first host segment left — the windows' arrays into the pipeline (x in two
    halves), everything else bypassing —, left with the arrays at their final contents, the new cache's array and
    the buffer of the last result set apart for the last host segment. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) S1 (V1 m c) ∗ R1 m c)
  X c := iprop(emp)
  Y c := iprop(emp)
  Z c := restZ c (V m c)
  hentry c := by
    rw [show StableHlo.held (c : Thread nD τ) (Pipeline.ucRefs τ sig) (StableHlo.after hostOps0 (V₀ m c)) = unscopedBufs c (V m c) from (Pipeline.unscopedBufs_held c _).symm]
    iintro ⟨⟨Hub, HO⟩, -, -⟩
    ihave H := (entry_split m c) $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr [Hz]; · iempintro
    iexact Hz
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr [Hr]; · iempintro
    isplitr [Hr]; · iempintro
    iexact Hr
  hexit c := by
    rw [arrays_chain]
    iintro ⟨⟨H0, H1, H2, H3, H4, H5, H6⟩, HO, -, ⟨Z1, Z2, Z3, Z0, Z5⟩⟩
    imodintro
    isplitl [H6 Z5]
    · rw [held_S1, V1_cache, V1_v5]
      isplitl [H6]; · iexact H6
      iexact Z5
    isplitl [H0]; · iexact H0
    isplitl [H1]; · iexact H1
    isplitl [H2]; · iexact H2
    isplitl [H3]; · iexact H3
    isplitl [H4]; · iexact H4
    isplitl [H5]; · iexact H5
    isplitl [Z1]; · iexact Z1
    isplitl [Z2]; · iexact Z2
    isplitl [Z3]; · iexact Z3
    isplitl [Z0]; · iexact Z0
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-! ## The run -/

/-- No host operation before the region writes an argument. -/
theorem not_written (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

theorem V_arg0 (c : Dev nD) : V m c main_arg0 = m ((c : Thread nD τ).loc main_arg0) :=
  StableHlo.after_of_forall_not_mem (b := Proc.devRef .tc main_arg0) hostOps0 (V₀ m c) (not_written main_arg0 (by decide))
theorem V_arg1 (c : Dev nD) : V m c main_arg1 = m ((c : Thread nD τ).loc main_arg1) :=
  StableHlo.after_of_forall_not_mem (b := Proc.devRef .tc main_arg1) hostOps0 (V₀ m c) (not_written main_arg1 (by decide))
theorem V_arg2 (c : Dev nD) : V m c main_arg2 = m ((c : Thread nD τ).loc main_arg2) :=
  StableHlo.after_of_forall_not_mem (b := Proc.devRef .tc main_arg2) hostOps0 (V₀ m c) (not_written main_arg2 (by decide))
theorem V_arg3 (c : Dev nD) : V m c main_arg3 = m ((c : Thread nD τ).loc main_arg3) :=
  StableHlo.after_of_forall_not_mem (b := Proc.devRef .tc main_arg3) hostOps0 (V₀ m c) (not_written main_arg3 (by decide))

/-- The launch element: the pipeline library's at the staging cells. -/
def u₀ : UR sig nD τ := initOf (Pipeline.cells cfgs cellOf_inj) (Pipeline.launchToks cfgs cellOf_inj)

/-- What the last segment leaves, the core's `owes` apart. -/
abbrev Tₙ (c : Dev nD) : sProp 𝕄 :=
  iprop(StableHlo.held (c : Thread nD τ) S1 (StableHlo.after hostOps1 (V1 m c)) ∗
    (((c : Thread nD τ).loc main_arg0) ↦{fullShare.left} (dats m 0 c).arrAt 0 cfg0.N) ∗ (((c : Thread nD τ).loc main_arg0) ↦{fullShare.right} (dats m 0 c).arrAt 1 cfg0.N)
    ∗ (((c : Thread nD τ).loc main_v3) ↦{fullShare} (dats m 0 c).arrAt 2 cfg0.N) ∗ (((c : Thread nD τ).loc main_v1) ↦{fullShare} (dats m 0 c).arrAt 3 cfg0.N)
    ∗ (((c : Thread nD τ).loc main_v2) ↦{fullShare} (dats m 0 c).arrAt 4 cfg0.N) ∗ (((c : Thread nD τ).loc main_v4_0) ↦{fullShare} (dats m 0 c).arrAt 5 cfg0.N)
    ∗ (((c : Thread nD τ).loc main_arg1) ↦{fullShare} V m c main_arg1) ∗ (((c : Thread nD τ).loc main_arg2) ↦{fullShare} V m c main_arg2)
    ∗ (((c : Thread nD τ).loc main_arg3) ↦{fullShare} V m c main_arg3) ∗ (((c : Thread nD τ).loc main_v0) ↦{fullShare} V m c main_v0))

/-- What every final memory holds on core `c`: the output array at the pipeline's account of its write-backs,
    the last result at the last host operation's value over the new cache's array, the arguments as launched. -/
def Final (c : Dev nD) (s : MemSt nD τ sig (Elt F)) : Prop :=
  s.mem ((c : Thread nD τ).loc main_v4_0) = (dats m 0 c).arrAt 5 cfg0.N
  ∧ s.mem ((c : Thread nD τ).loc main_v5) = StableHlo.after hostOps1 (V1 m c) (Proc.devRef .tc main_v5)
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)

set_option backward.isDefEq.respectTransparency.types false in
set_option maxHeartbeats 2000000 in
/-- At the compiled mesh, for any float values, from any memory with zero counters: every weakly fair execution of
    @main on the TensorCores terminates, and every final state is as `Final` says. -/
theorem run_main : θ_run defs (onTc (τ := τ) (main (F := F))) ⟨m, fun _ => 0, ρ⟩ (fun r => ∀ c : Dev nD, Final m c r.2) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) S1 (StableHlo.after hostOps1 (V1 m c)) ∗ R1 m c) ⊢ _
      iintro ⟨Hh, H0, H1, H2, H3, H4, H5, Z1, Z2, Z3, Z0, HR⟩
      isplitr [HR]
      · isplitl [Hh]; · iexact Hh
        isplitl [H0]; · iexact H0
        isplitl [H1]; · iexact H1
        isplitl [H2]; · iexact H2
        isplitl [H3]; · iexact H3
        isplitl [H4]; · iexact H4
        isplitl [H5]; · iexact H5
        isplitl [Z1]; · iexact Z1
        isplitl [Z2]; · iexact Z2
        isplitl [Z3]; · iexact Z3
        iexact Z0
      · iexact HR⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => Final m c s)
    (hfin := fun c s' => by
      dsimp only [Tₙ]
      rw [held_S1]
      iintro ⟨⟨⟨H41, H5r⟩, H0, H1, H2, H3, H4, H5, Z1, Z2, Z3, Z0⟩, HSI⟩
      icombine HSI H5 gives %h5
      icombine HSI H5r gives %h5r
      icombine HSI H0 gives %h0
      icombine HSI Z1 gives %h1
      icombine HSI Z2 gives %h2
      icombine HSI Z3 gives %h3
      imodintro
      isplitr
      · ipureintro
        exact ⟨Buf.eq_of_forall_mem_univ h5, Buf.eq_of_forall_mem_univ h5r,
          (Buf.eq_of_forall_mem_univ h0).trans (((dats m 0 c).arrAt_in 0 rfl _).trans ((A_eq m c 0).trans (V_arg0 m c))),
          (Buf.eq_of_forall_mem_univ h1).trans (V_arg1 m c), (Buf.eq_of_forall_mem_univ h2).trans (V_arg2 m c), (Buf.eq_of_forall_mem_univ h3).trans (V_arg3 m c)⟩
      iexact HSI)
    (hQ := fun _ h => h)

end Cert.Kernel.Hand

end
-- ==== Proof.BodyIdeal.lean ====
/-
  The convolution body run once, symbolically, on any seven whole staging memrefs.

  One grid point (b, s) handles the 1024 rows [1024 s, 1024 s + 1024) of batch b. The body reads its five
  inputs — the tile of x, the eight rows of x just before the tile, the three cached rows, the four tap
  rows of the weight and the bias row —, stores the whole output tile, then stores its first three rows again,
  and, at the last tile of the sequence only (s = 3), stores the tile's last three rows into the new cache.
  The two theorems below are that run in the two cases of the one conditional: what each output memref is
  left holding is the list of pieces the run finds (newest first), over whatever it held before.
-/
import proofs.«137967_j58746562674739_2_alg».proof.Proof.Gen.KernelIdeal.Launch
import proofs.«137967_j58746562674739_2_alg».proof.Proof.Gen.KernelIdeal.Skeleton
import proofs.«137967_j58746562674739_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The one conditional of the body: the point is the last tile of its sequence. -/
abbrev lastTile (i : grid0.Coords) : Prop := k0_cond1 i = 1#1

/-- It holds at the points 3, 7, 11, … of the 32 (row-major over 8 batches × 4 tiles). -/
theorem lastTile_iff : ∀ t : Fin cfg0.N, lastTile (grid0.coords t) ↔ t.val % 4 = 3 :=
  (by decide +kernel : ∀ t : Fin grid0.N, lastTile (grid0.coords t) ↔ t.val % 4 = 3)

set_option maxHeartbeats 4000000 in
/-- The body at a last tile: the inputs are handed back as found, the output tile's memref and the new
    cache's memref each hold the pieces the run stored. -/
noncomputable def runLast (c : Dev nD) (i : grid0.Coords)
    (arg2 : Memref sig .tc .vmem S1x1024x2048 .f32) (harg2 : arg2.IsWhole) (arg3 : Memref sig .tc .vmem S1x8x2048 .f32) (harg3 : arg3.IsWhole)
    (arg4 : Memref sig .tc .vmem S1x3x2048 .f32) (harg4 : arg4.IsWhole) (arg5 : Memref sig .tc .vmem S4x2048 .f32) (harg5 : arg5.IsWhole)
    (arg6 : Memref sig .tc .vmem S1x2048 .f32) (harg6 : arg6.IsWhole) (arg7 : Memref sig .tc .vmem S1x1024x2048 .f32) (harg7 : arg7.IsWhole)
    (arg8 : Memref sig .tc .vmem S1x3x2048 .f32) (harg8 : arg8.IsWhole) (hc : lastTile i)
    (x0 : Vec F S1x1024x2048 .f32) (x1 : Vec F S1x8x2048 .f32) (x2 : Vec F S1x3x2048 .f32) (x3 : Vec F S4x2048 .f32) (x4 : Vec F S1x2048 .f32) :
    Σ' (L7 : List (View.Piece (Elt F) S1x1024x2048 .f32)), { L8 : List (View.Piece (Elt F) S1x3x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E (cc0__conv_kernel i arg2 harg2 arg3 harg3 arg4 harg4 arg5 harg5 arg6 harg6 arg7 harg7 arg8 harg8) K } := by
  refine ⟨?_, ?_, fun E K => ?run⟩
  case run =>
    simp only [cc0__conv_kernel_eq_skeleton]; unfold cc0__conv_kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
    obtain rfl := harg2.eq_unread hf0; obtain rfl := harg3.eq_unread hf1; obtain rfl := harg4.eq_unread hf2
    obtain rfl := harg5.eq_unread hf3; obtain rfl := harg6.eq_unread hf4
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists f7; iexact H7
    iexists f8; iexact H8

set_option maxHeartbeats 4000000 in
/-- The body at any other tile: the inputs and the new cache's memref are handed back as found, the output
    tile's memref holds the pieces the run stored. -/
noncomputable def runRest (c : Dev nD) (i : grid0.Coords)
    (arg2 : Memref sig .tc .vmem S1x1024x2048 .f32) (harg2 : arg2.IsWhole) (arg3 : Memref sig .tc .vmem S1x8x2048 .f32) (harg3 : arg3.IsWhole)
    (arg4 : Memref sig .tc .vmem S1x3x2048 .f32) (harg4 : arg4.IsWhole) (arg5 : Memref sig .tc .vmem S4x2048 .f32) (harg5 : arg5.IsWhole)
    (arg6 : Memref sig .tc .vmem S1x2048 .f32) (harg6 : arg6.IsWhole) (arg7 : Memref sig .tc .vmem S1x1024x2048 .f32) (harg7 : arg7.IsWhole)
    (arg8 : Memref sig .tc .vmem S1x3x2048 .f32) (harg8 : arg8.IsWhole) (hc : ¬lastTile i)
    (x0 : Vec F S1x1024x2048 .f32) (x1 : Vec F S1x8x2048 .f32) (x2 : Vec F S1x3x2048 .f32) (x3 : Vec F S4x2048 .f32) (x4 : Vec F S1x2048 .f32) :
    { L7 : List (View.Piece (Elt F) S1x1024x2048 .f32) //
      ∀ (E : Set ℕ) (K : PUnit → sProp 𝕄) (R8 : sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ R8
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L7)
                ∗ R8) -∗ K ⟨⟩))
          ⊢ wp frame (wpE (defs₀ (F := F)) Variants.none c none) E (cc0__conv_kernel i arg2 harg2 arg3 harg3 arg4 harg4 arg5 harg5 arg6 harg6 arg7 harg7 arg8 harg8) K } := by
  refine ⟨?_, fun E K R8 => ?run⟩
  case run =>
    simp only [cc0__conv_kernel_eq_skeleton]; unfold cc0__conv_kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, H8, Hk⟩
    obtain rfl := harg2.eq_unread hf0; obtain rfl := harg3.eq_unread hf1; obtain rfl := harg4.eq_unread hf2
    obtain rfl := harg5.eq_unread hf3; obtain rfl := harg6.eq_unread hf4
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists f7; iexact H7
    iexact H8

end Cert.KernelIdeal.Hand

end
-- ==== Proof.DataIdeal.lean ====
/-
  The proof data of the convolution's one pipeline, and what each staging buffer holds when the body runs.

  The pipeline has seven windows: the tile of x (0), the eight rows of x before the tile (1: the same array as
  window 0, which is why that array is held in two halves), the three cached rows (2), the four weight rows (3),
  the bias row (4), the output tile (5) and the new cache (6). Every input buffer holds, at every point, the block
  of its array that the point's index names. The output tile is stored whole and then its first three rows
  again, so what it holds afterwards is the later store on those rows and the earlier one elsewhere. The new
  cache is stored at the last tile of each sequence only; at the other points its buffer is handed back
  untouched and is not written back.
-/
import proofs.«137967_j58746562674739_2_alg».proof.Proof.BodyIdeal
import Idealize.ShloMosaic.Lib.Pipeline.Regions
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## What the body stores, over the blocks it loads -/

theorem zeros3 : (![0, 0, 0] : Fin 3 → ℕ) = fun _ => 0 := by funext a; fin_cases a <;> rfl
theorem zeros2 : (![0, 0] : Fin 2 → ℕ) = fun _ => 0 := by funext a; fin_cases a <;> rfl

/-- The three rows before the tile: the cached rows at the first tile of a sequence, else the last three of the
    eight rows of x before the tile. -/
abbrev prevRows (i : grid0.Coords) (x1 : Vec F S1x8x2048 .f32) (x2 : Vec F S1x3x2048 .f32) : FVec F S3x2048 .f32 := k0_pay6 i x1 x2

/-- The stores into the output tile, newest first: its first three rows (each from the six-row window made of
    the three rows before the tile and the tile's first three), then the whole tile by rotations. -/
def tilePieces (i : grid0.Coords) (x0 : Vec F S1x1024x2048 .f32) (x1 : Vec F S1x8x2048 .f32) (x2 : Vec F S1x3x2048 .f32)
    (x3 : Vec F S4x2048 .f32) (x4 : Vec F S1x2048 .f32) : List (View.Piece (Elt F) S1x1024x2048 .f32) :=
  [⟨Rect.unit ![0, 0, 0] S1x3x2048.size inb_S1x1024x2048_S1x3x2048_0_0_0,
      k0_pay1 (k0_pay4 x3) (k0_pay5 x4) (k0_pay10 (k0_pay3 x0) (prevRows i x1 x2))
        (k0_pay11 (k0_pay3 x0) (k0_pay4 x3) (k0_pay5 x4) (prevRows i x1 x2))
        (k0_pay12 (k0_pay3 x0) (k0_pay4 x3) (k0_pay5 x4) (prevRows i x1 x2))
        (k0_pay13 (k0_pay3 x0) (k0_pay4 x3) (prevRows i x1 x2))⟩,
   ⟨Rect.unit ![0, 0, 0] S1x1024x2048.size inb_S1x1024x2048_S1x1024x2048_0_0_0,
      k0_pay9 (k0_pay7 x0 x3) (k0_pay8 x4)⟩]

/-- They cover the tile (the older one alone does). -/
theorem tilePieces_cover (i : grid0.Coords) (x0 : Vec F S1x1024x2048 .f32) (x1 : Vec F S1x8x2048 .f32) (x2 : Vec F S1x3x2048 .f32)
    (x3 : Vec F S4x2048 .f32) (x4 : Vec F S1x2048 .f32) (y : S1x1024x2048.Idx) :
    ∃ p ∈ tilePieces i x0 x1 x2 x3 x4, y ∈ p.1.set :=
  ⟨_, List.mem_cons_of_mem _ (List.mem_singleton_self _), View.mem_set_unit_zero zeros3 inb_S1x1024x2048_S1x1024x2048_0_0_0 y⟩

/-- What the output tile's buffer holds after the body. -/
def tileOut (i : grid0.Coords) (x0 : Vec F S1x1024x2048 .f32) (x1 : Vec F S1x8x2048 .f32) (x2 : Vec F S1x3x2048 .f32)
    (x3 : Vec F S4x2048 .f32) (x4 : Vec F S1x2048 .f32) : Vec F S1x1024x2048 .f32 :=
  View.canon (tilePieces i x0 x1 x2 x3 x4)

/-- The one store into the new cache: the tile's last three rows. -/
def cachePieces (x0 : Vec F S1x1024x2048 .f32) : List (View.Piece (Elt F) S1x3x2048 .f32) :=
  [⟨Rect.unit ![0, 0, 0] S1x3x2048.size inb_S1x3x2048_S1x3x2048_0_0_0, k0_pay2 (k0_pay3 x0)⟩]

theorem cachePieces_cover (x0 : Vec F S1x1024x2048 .f32) (y : S1x3x2048.Idx) : ∃ p ∈ cachePieces x0, y ∈ p.1.set :=
  ⟨_, List.mem_singleton_self _, View.mem_set_unit_zero zeros3 inb_S1x3x2048_S1x3x2048_0_0_0 y⟩

/-- What the new cache's buffer holds after the body at a last tile. -/
def cacheOut (x0 : Vec F S1x1024x2048 .f32) : Vec F S1x3x2048 .f32 := View.canon (cachePieces x0)

section Found
variable (c : Dev nD) (i : grid0.Coords)
    (arg2 : Memref sig .tc .vmem S1x1024x2048 .f32) (harg2 : arg2.IsWhole) (arg3 : Memref sig .tc .vmem S1x8x2048 .f32) (harg3 : arg3.IsWhole)
    (arg4 : Memref sig .tc .vmem S1x3x2048 .f32) (harg4 : arg4.IsWhole) (arg5 : Memref sig .tc .vmem S4x2048 .f32) (harg5 : arg5.IsWhole)
    (arg6 : Memref sig .tc .vmem S1x2048 .f32) (harg6 : arg6.IsWhole) (arg7 : Memref sig .tc .vmem S1x1024x2048 .f32) (harg7 : arg7.IsWhole)
    (arg8 : Memref sig .tc .vmem S1x3x2048 .f32) (harg8 : arg8.IsWhole)
    (x0 : Vec F S1x1024x2048 .f32) (x1 : Vec F S1x8x2048 .f32) (x2 : Vec F S1x3x2048 .f32) (x3 : Vec F S4x2048 .f32) (x4 : Vec F S1x2048 .f32)

/-- The pieces the run found at a last tile are these (a load through the whole rectangle reads the contents). -/
theorem runLast_tile (hc : lastTile i) :
    (runLast (F := F) c i arg2 harg2 arg3 harg3 arg4 harg4 arg5 harg5 arg6 harg6 arg7 harg7 arg8 harg8 hc x0 x1 x2 x3 x4).1 = tilePieces i x0 x1 x2 x3 x4 := by
  unfold runLast tilePieces; dsimp only; sl_unfold_run_names
  simp only [View.readAt_eq_ld, Memref.IsWhole.read_unread, View.ld_unit_zero (S := S1x1024x2048) zeros3, View.ld_unit_zero (S := S1x8x2048) zeros3,
    View.ld_unit_zero (S := S1x3x2048) zeros3, View.ld_unit_zero (S := S4x2048) zeros2, View.ld_unit_zero (S := S1x2048) zeros2]

theorem runLast_cache (hc : lastTile i) :
    (runLast (F := F) c i arg2 harg2 arg3 harg3 arg4 harg4 arg5 harg5 arg6 harg6 arg7 harg7 arg8 harg8 hc x0 x1 x2 x3 x4).2.1 = cachePieces x0 := by
  unfold runLast cachePieces; dsimp only; sl_unfold_run_names
  simp only [View.readAt_eq_ld, Memref.IsWhole.read_unread, View.ld_unit_zero (S := S1x1024x2048) zeros3]

theorem runRest_tile (hc : ¬lastTile i) :
    (runRest (F := F) c i arg2 harg2 arg3 harg3 arg4 harg4 arg5 harg5 arg6 harg6 arg7 harg7 arg8 harg8 hc x0 x1 x2 x3 x4).1 = tilePieces i x0 x1 x2 x3 x4 := by
  unfold runRest tilePieces; dsimp only; sl_unfold_run_names
  simp only [View.readAt_eq_ld, Memref.IsWhole.read_unread, View.ld_unit_zero (S := S1x1024x2048) zeros3, View.ld_unit_zero (S := S1x8x2048) zeros3,
    View.ld_unit_zero (S := S1x3x2048) zeros3, View.ld_unit_zero (S := S4x2048) zeros2, View.ld_unit_zero (S := S1x2048) zeros2]

end Found

/-! ## The arrays as the region finds them, and the windows' blocks -/

variable (m : (ℓ : Loc nD τ sig) → Buf (Elt F) ℓ)

/-- Core `c`'s buffers at launch, as a valuation; -/
abbrev V₀ (c : Dev nD) : Valuation τ sig (Elt F) := fun b => m ((c : Dev nD), b)
/-- and when the region is entered: the weight reshaped and transposed to tap-major, the bias as a row, the cache
    transposed to row-major have been written beside the arguments. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data on core `c`: the arrays as the region finds them; after the body each input's buffer at its
    block, the output tile's at `tileOut` of the point's blocks, the new cache's at `cacheOut` of the tile;
    no invariant beyond the scoped rest; the array of x held in two halves by the two windows on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOut (grid0.coords t) (iblk m c 0 t) (iblk m c 1 t) (iblk m c 2 t) (iblk m c 3 t) (iblk m c 4 t)
    | ⟨6, _⟩ => cacheOut (iblk m c 0 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = tileOut (grid0.coords t) (iblk m c 0 t) (iblk m c 1 t) (iblk m c 2 t) (iblk m c 3 t) (iblk m c 4 t) := by dsimp only [dats]
theorem after0_6 (c : Dev nD) (t : Fin cfg0.N) : (dats m 0 c).after 6 t = cacheOut (iblk m c 0 t) := by dsimp only [dats]

/-- An input's buffer holds its block at every point, fetched there or not: where it is not fetched its block
    index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## Where the windows are idle, and the staging memrefs at a point -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- The new cache is stored at the last tiles, -/
theorem live0_6 : ∀ t : Fin cfg0.N, lastTile (grid0.coords t) → cfg0.idle 6 (grid0.coords t) = false := by decide +kernel
/-- left untouched at the others, -/
theorem idle0_6 : ∀ t : Fin cfg0.N, ¬lastTile (grid0.coords t) → cfg0.idle 6 (grid0.coords t) = true := by decide +kernel
/-- and not written back there. -/
theorem noFlush0_6 : ∀ t : Fin cfg0.N, ¬lastTile (grid0.coords t) → (cfg0.win 6).flush t = false := by decide +kernel

abbrev ms0 (t : Fin cfg0.N) : Memref sig .tc .vmem S1x1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x3x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x3x2048 .f32 := win0_6.stage (cfg0.slots t 6)
abbrev hs6 (t : Fin cfg0.N) : (ms6 t).IsWhole := hstage0_6 ((cfg0.slots t 6).cast nbuf0_6)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: each input's buffer holds its block; at a last tile the run stores both outputs, and
    what each then reads is the canon of its pieces; at another tile it stores the output tile alone and hands
    the new cache's buffer back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = (dats m 0 c).Φ t.castSucc from rfl]
  rw [show (dats m 0 c).leavesExact 0 t = owns (c : Thread nD τ) (ms0 t) fullShare ((dats m 0 c).after 0 t) from by
    unfold Dat.leavesExact; rw [live0_0 t], after0_0]
  rw [show (dats m 0 c).leavesExact 1 t = owns (c : Thread nD τ) (ms1 t) fullShare ((dats m 0 c).after 1 t) from by
    unfold Dat.leavesExact; rw [live0_1 t], after0_1]
  rw [show (dats m 0 c).leavesExact 2 t = owns (c : Thread nD τ) (ms2 t) fullShare ((dats m 0 c).after 2 t) from by
    unfold Dat.leavesExact; rw [live0_2 t], after0_2]
  rw [show (dats m 0 c).leavesExact 3 t = owns (c : Thread nD τ) (ms3 t) fullShare ((dats m 0 c).after 3 t) from by
    unfold Dat.leavesExact; rw [live0_3 t], after0_3]
  rw [show (dats m 0 c).leavesExact 4 t = owns (c : Thread nD τ) (ms4 t) fullShare ((dats m 0 c).after 4 t) from by
    unfold Dat.leavesExact; rw [live0_4 t], after0_4]
  rw [show (dats m 0 c).leavesExact 5 t = owns (c : Thread nD τ) (ms5 t) fullShare ((dats m 0 c).after 5 t) from by
    unfold Dat.leavesExact; rw [live0_5 t], after0_5]
  by_cases hc : lastTile (grid0.coords t)
  · rw [show (dats m 0 c).leavesExact 6 t = owns (c : Thread nD τ) (ms6 t) fullShare ((dats m 0 c).after 6 t) from by
      unfold Dat.leavesExact; rw [live0_6 t hc], after0_6]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLast c (grid0.coords t) _ _ _ _ _ _ _ _ _ _ _ _ _ _ hc (iblk m c 0 t) (iblk m c 1 t) (iblk m c 2 t) (iblk m c 3 t) (iblk m c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; rw [runLast_tile]; exact View.read_writes_eq_canon _ _ _ (tilePieces_cover _ _ _ _ _ _)
    unfold owns; iexists _; isplitr
    swap; · iexact H6
    ipureintro; rw [runLast_cache]; exact View.read_writes_eq_canon _ _ _ (cachePieces_cover _)
  · rw [Dat.leavesExact_idle (dats m 0 c) 6 t (idle0_6 t hc) (noFlush0_6 t hc)]
    iintro ⟨HΦ, Ho, ⟨%d0, H0⟩, ⟨%d1, H1⟩, ⟨%d2, H2⟩, ⟨%d3, H3⟩, ⟨%d4, H4⟩, ⟨%d5, H5⟩, H6⟩
    iapply ((runRest c (grid0.coords t) _ _ _ _ _ _ _ _ _ _ _ _ _ _ hc (iblk m c 0 t) (iblk m c 1 t) (iblk m c 2 t) (iblk m c 3 t) (iblk m c 4 t)).2 Set.univ _
      (iprop(∃ d, owns (c : Thread nD τ) (ms6 t) fullShare ((dats m 0 c).before 6 t d))))
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; rw [runRest_tile]; exact View.read_writes_eq_canon _ _ _ (tilePieces_cover _ _ _ _ _ _)
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.TileValue.lean ====
/-
  One tile of the convolution, read at an index.

  A tile is 1024 rows by 2048 features. With x the tile, w the four tap rows, β the bias row and p the three
  rows before the tile (the cached rows at the first tile of a sequence, else the last three of the eight rows
  of x before the tile), the body leaves at row r ≥ 3 and feature f

      (((x[r]·w₃ + x[r-3]·w₀) + x[r-2]·w₁) + x[r-1]·w₂) + β        (each at feature f)

  — the three rotations of the tile by 3, 2, 1 rows do not wrap there — and at the rows r < 3, from the six-row
  window u = p ++ x[0:3],

      ((((0 + u[r]·w₀) + u[r+1]·w₁) + u[r+2]·w₂) + u[r+3]·w₃) + β.

  Both are the four products u[r+k]·w_k of the padded sequence summed with the bias, in two orders.
-/
import proofs.«137967_j58746562674739_2_alg».proof.Proof.DataIdeal
import Idealize.ShloMosaic.Lib.ValueIdx
import Idealize.ShloMosaic.Lib.Pipeline.Value
import Idealize.ShloMosaic.Lib.KernelVsHost
import Idealize.ShloMosaic.PureOps.Ideal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx

/-! ## Layout reads -/

section Layout
variable {α : Type}

/-- A [1, a, b] block viewed [a, b] reads (0, r, f) at (r, f). -/
theorem drop1_tile (v : S1x1024x2048.Idx → α) (h : S1x1024x2048.ShapeCasts S1024x2048) (r : Fin 1024) (f : Fin 2048) :
    shapeCast S1024x2048 v h (ix2 r f) = v (ix3 0 r f) :=
  shapeCast_apply v h _ _ (by rw [Shape.rowMajor_val_three, Shape.rowMajor_val_two]; show (0 * 1024 + r.val) * 2048 + f.val = r.val * 2048 + f.val; omega)
theorem drop1_halo (v : S1x8x2048.Idx → α) (h : S1x8x2048.ShapeCasts S8x2048) (r : Fin 8) (f : Fin 2048) :
    shapeCast S8x2048 v h (ix2 r f) = v (ix3 0 r f) :=
  shapeCast_apply v h _ _ (by rw [Shape.rowMajor_val_three, Shape.rowMajor_val_two]; show (0 * 8 + r.val) * 2048 + f.val = r.val * 2048 + f.val; omega)
theorem drop1_three (v : S1x3x2048.Idx → α) (h : S1x3x2048.ShapeCasts S3x2048) (r : Fin 3) (f : Fin 2048) :
    shapeCast S3x2048 v h (ix2 r f) = v (ix3 0 r f) :=
  shapeCast_apply v h _ _ (by rw [Shape.rowMajor_val_three, Shape.rowMajor_val_two]; show (0 * 3 + r.val) * 2048 + f.val = r.val * 2048 + f.val; omega)
/-- A [3, b] value stored as a [1, 3, b] block reads (r, f) at (0, r, f); likewise the whole tile. -/
theorem add1_three (v : S3x2048.Idx → α) (h : S3x2048.ShapeCasts S1x3x2048) (r : Fin 3) (f : Fin 2048) :
    shapeCast S1x3x2048 v h (ix3 0 r f) = v (ix2 r f) :=
  shapeCast_apply v h _ _ (by rw [Shape.rowMajor_val_three, Shape.rowMajor_val_two]; show r.val * 2048 + f.val = (0 * 3 + r.val) * 2048 + f.val; omega)
theorem add1_tile (v : S1024x2048.Idx → α) (h : S1024x2048.ShapeCasts S1x1024x2048) (r : Fin 1024) (f : Fin 2048) :
    shapeCast S1x1024x2048 v h (ix3 0 r f) = v (ix2 r f) :=
  shapeCast_apply v h _ _ (by rw [Shape.rowMajor_val_three, Shape.rowMajor_val_two]; show r.val * 2048 + f.val = (0 * 1024 + r.val) * 2048 + f.val; omega)
/-- A [1, b] row viewed [b] reads (0, f) at f. -/
theorem drop1_row (v : S1x2048.Idx → α) (h : S1x2048.ShapeCasts S2048) (f : Fin 2048) :
    shapeCast S2048 v h (ix1 f) = v (ix2 0 f) :=
  shapeCast_apply v h _ _ (by rw [Shape.rowMajor_val_two, Shape.rowMajor_val_one]; show 0 * 2048 + f.val = f.val; omega)

/-- Row k of the four tap rows, as a one-row slice. -/
theorem tapRow (k : Fin 4) (v : S4x2048.Idx → α) (h : S4x2048.Slices ![k.val, 0] S1x2048) (f : Fin 2048) :
    extractStridedSlice S1x2048 ![k.val, 0] v h (ix2 0 f) = v (ix2 k f) :=
  extractStridedSlice_apply _ v h _ _ (fun a => match a with
    | ⟨0, _⟩ => by show k.val = k.val + 0; omega
    | ⟨1, _⟩ => by show f.val = 0 + f.val; omega)

/-- Row j of the six-row window, as a one-row slice. -/
theorem winRow (j : Fin 6) (v : S6x2048.Idx → α) (h : S6x2048.Slices ![j.val, 0] S1x2048) (f : Fin 2048) :
    extractStridedSlice S1x2048 ![j.val, 0] v h (ix2 0 f) = v (ix2 j f) :=
  extractStridedSlice_apply _ v h _ _ (fun a => match a with
    | ⟨0, _⟩ => by show j.val = j.val + 0; omega
    | ⟨1, _⟩ => by show f.val = 0 + f.val; omega)

/-- A row broadcast down the tile reads the row's element at the feature. -/
theorem downTile (v : S1x2048.Idx → α) (h : S1x2048.Broadcasts S1024x2048) (r : Fin 1024) (f : Fin 2048) :
    broadcastTo S1024x2048 v h (ix2 r f) = v (ix2 0 f) :=
  broadcastTo_apply v h _ _ (fun a => match a with
    | ⟨0, _⟩ => by show 0 = if (1 : ℕ) = 1 then 0 else r.val; rw [if_pos rfl]
    | ⟨1, _⟩ => by show f.val = if (2048 : ℕ) = 1 then 0 else f.val; rw [if_neg (by decide)])

/-- The tile rotated down by s rows (s ≤ 3) reads, at a row r ≥ s, the row r - s: no wrap. -/
theorem rotRow (s : BitVec 32) (hs : s.toNat ≤ 3) (v : S1024x2048.Idx → α) (h : S1024x2048.Rotates 0 none) (r : Fin 1024) (hr : s.toNat ≤ r.val) (f : Fin 2048) :
    dynamicRotate 0 s none v h (ix2 r f) = v (ix2 ⟨r.val - s.toNat, by omega⟩ f) :=
  dynamicRotate_apply 0 s v h _ _ (fun b => match b with
    | ⟨0, _⟩ => by
      split
      · show r.val - s.toNat = (r.val + 1024 - s.toNat % 1024) % 1024
        have := r.isLt; omega
      · rename_i hne; exact absurd (Fin.ext rfl) hne
    | ⟨1, _⟩ => by
      split
      · rename_i he; exact absurd (congrArg Fin.val he) Nat.one_ne_zero
      · rfl)

/-- The first three rows of the tile, as a slice. -/
theorem headRows (v : S1024x2048.Idx → α) (h : S1024x2048.Slices ![0, 0] S3x2048) (r : Fin 3) (f : Fin 2048) :
    extractStridedSlice S3x2048 ![0, 0] v h (ix2 r f) = v (ix2 ⟨r.val, by omega⟩ f) :=
  extractStridedSlice_apply _ v h _ _ (fun a => match a with
    | ⟨0, _⟩ => by show r.val = 0 + r.val; omega
    | ⟨1, _⟩ => by show f.val = 0 + f.val; omega)
/-- The last three rows of the tile, as a slice. -/
theorem tailRows (v : S1024x2048.Idx → α) (h : S1024x2048.Slices ![1021, 0] S3x2048) (r : Fin 3) (f : Fin 2048) :
    extractStridedSlice S3x2048 ![1021, 0] v h (ix2 r f) = v (ix2 ⟨1021 + r.val, by omega⟩ f) :=
  extractStridedSlice_apply _ v h _ _ (fun a => match a with
    | ⟨0, _⟩ => by show 1021 + r.val = 1021 + r.val; omega
    | ⟨1, _⟩ => by show f.val = 0 + f.val; omega)
/-- The last three of the eight rows before the tile, as a slice. -/
theorem haloRows (v : S8x2048.Idx → α) (h : S8x2048.Slices ![5, 0] S3x2048) (r : Fin 3) (f : Fin 2048) :
    extractStridedSlice S3x2048 ![5, 0] v h (ix2 r f) = v (ix2 ⟨5 + r.val, by omega⟩ f) :=
  extractStridedSlice_apply _ v h _ _ (fun a => match a with
    | ⟨0, _⟩ => by show 5 + r.val = 5 + r.val; omega
    | ⟨1, _⟩ => by show f.val = 0 + f.val; omega)

/-- The six-row window p ++ q: rows 0–2 are p's, rows 3–5 are q's. -/
theorem window_left (p q : S3x2048.Idx → α) (h : Shape.Concatenates [S3x2048, S3x2048] S6x2048 0) (j : Fin 6) (hj : j.val < 3) (f : Fin 2048) :
    concatenate S6x2048 0 [⟨S3x2048, p⟩, ⟨S3x2048, q⟩] h (ix2 j f) = p (ix2 ⟨j.val, hj⟩ f) :=
  concatenate_pair_apply_left 0 p q h _ rfl _ (fun b => match b with
    | ⟨0, _⟩ => rfl
    | ⟨1, _⟩ => rfl)
theorem window_right (p q : S3x2048.Idx → α) (h : Shape.Concatenates [S3x2048, S3x2048] S6x2048 0) (j : Fin 6) (hj : 3 ≤ j.val) (f : Fin 2048) :
    concatenate S6x2048 0 [⟨S3x2048, p⟩, ⟨S3x2048, q⟩] h (ix2 j f) = q (ix2 ⟨j.val - 3, by omega⟩ f) :=
  concatenate_pair_apply_right 0 p q h _ rfl rfl _ (fun b hb => match b, hb with
    | ⟨0, _⟩, hb => absurd rfl hb
    | ⟨1, _⟩, _ => rfl) (by show j.val - 3 + 3 = j.val; omega)

end Layout

/-! ## The body's payloads at an index, at the ideal instance -/

section Payloads
variable (i : grid0.Coords) (x0 : Vec Ideal S1x1024x2048 .f32) (x1 : Vec Ideal S1x8x2048 .f32) (x2 : Vec Ideal S1x3x2048 .f32)
  (x3 : Vec Ideal S4x2048 .f32) (x4 : Vec Ideal S1x2048 .f32)

theorem pay3_at (r : Fin 1024) (f : Fin 2048) : k0_pay3 (F := Ideal) x0 (ix2 r f) = x0 (ix3 0 r f) := by
  unfold k0_pay3; exact drop1_tile _ _ r f
theorem pay4_eq : k0_pay4 (F := Ideal) x3 = x3 := by
  unfold k0_pay4; exact shapeCast_self _ _
theorem pay5_at (f : Fin 2048) : k0_pay5 (F := Ideal) x4 (ix1 f) = x4 (ix2 0 f) := by
  unfold k0_pay5; exact drop1_row _ _ f

/-- A select on "the tile's number is 0". -/
theorem sel_first {α : Type} (h : ℕ) (hh : h < 4) (A B : α) :
    Scalar.select (Scalar.cmpi .eq (BitVec.ofNat 32 h) 0#32) A B = if h = 0 then A else B := by
  interval_cases h <;> rfl

/-- The three rows before the tile: the cached rows at the first tile, else rows 5–7 of the eight before it. -/
theorem prev_at (k : Fin 3) (f : Fin 2048) :
    prevRows (F := Ideal) i x1 x2 (ix2 k f) = if (i 1).val = 0 then x2 (ix3 0 k f) else x1 (ix3 0 ⟨5 + k.val, by omega⟩ f) := by
  unfold prevRows k0_pay6
  dsimp only
  rw [sel_first (i 1).val (i 1).isLt]
  split
  · exact drop1_three _ _ k f
  · exact (haloRows _ _ k f).trans (drop1_halo _ _ _ f)

/-- A tap row broadcast down the tile. -/
theorem tapDown (k : Fin 4) (hsl : S4x2048.Slices ![k.val, 0] S1x2048) (h1 : S1x2048.ShapeCasts S2048) (h2 : S2048.ShapeCasts S1x2048)
    (hb : S1x2048.Broadcasts S1024x2048) (r : Fin 1024) (f : Fin 2048) :
    broadcastTo S1024x2048 (shapeCast S1x2048 (shapeCast S2048 (extractStridedSlice S1x2048 ![k.val, 0] (k0_pay4 (F := Ideal) x3) hsl) h1) h2) hb (ix2 r f)
      = x3 (ix2 k f) := by
  rw [downTile, shapeCast_shapeCast, tapRow, pay4_eq]

/-- The tile's rows from the fourth on: the tile and its three rotations against the four taps. -/
theorem pay7_at (r : Fin 1024) (hr : 3 ≤ r.val) (f : Fin 2048) :
    k0_pay7 (F := Ideal) x0 x3 (ix2 r f)
      = ((x0 (ix3 0 r f) * x3 (ix2 3 f) + x0 (ix3 0 ⟨r.val - 3, by omega⟩ f) * x3 (ix2 0 f))
          + x0 (ix3 0 ⟨r.val - 2, by omega⟩ f) * x3 (ix2 1 f)) + x0 (ix3 0 ⟨r.val - 1, by omega⟩ f) * x3 (ix2 2 f) := by
  unfold k0_pay7
  simp only [addf_apply, mulf_apply]
  refine congrArg₂ (· + ·) (congrArg₂ (· + ·) (congrArg₂ (· + ·) (congrArg₂ (· * ·) ?_ ?_) (congrArg₂ (· * ·) ?_ ?_)) (congrArg₂ (· * ·) ?_ ?_)) (congrArg₂ (· * ·) ?_ ?_)
  · exact pay3_at x0 r f
  · exact tapDown x3 3 _ _ _ _ r f
  · exact (rotRow 3#32 (by decide) _ _ r hr f).trans (pay3_at x0 _ f)
  · exact tapDown x3 0 _ _ _ _ r f
  · exact (rotRow 2#32 (by decide) _ _ r (le_trans (by decide) hr) f).trans (pay3_at x0 _ f)
  · exact tapDown x3 1 _ _ _ _ r f
  · exact (rotRow 1#32 (by decide) _ _ r (le_trans (by decide) hr) f).trans (pay3_at x0 _ f)
  · exact tapDown x3 2 _ _ _ _ r f

/-- The bias broadcast down the tile. -/
theorem pay8_at (r : Fin 1024) (f : Fin 2048) : k0_pay8 (F := Ideal) x4 (ix2 r f) = x4 (ix2 0 f) := by
  unfold k0_pay8 k0_pay5
  rw [downTile, shapeCast_shapeCast]

/-- The whole-tile store's payload. -/
theorem pay9_at (v38 v40 : FVec Ideal S1024x2048 .f32) (r : Fin 1024) (f : Fin 2048) :
    k0_pay9 (F := Ideal) v38 v40 (ix3 0 r f) = v38 (ix2 r f) + v40 (ix2 r f) := by
  unfold k0_pay9
  exact add1_tile _ _ r f

/-- The six-row window: the three rows before the tile, then the tile's first three. -/
theorem window_at (X : FVec Ideal S1024x2048 .f32) (P : FVec Ideal S3x2048 .f32) (j : Fin 6) (f : Fin 2048) :
    k0_pay10 (F := Ideal) X P (ix2 j f) = if h : j.val < 3 then P (ix2 ⟨j.val, h⟩ f) else X (ix2 ⟨j.val - 3, by omega⟩ f) := by
  unfold k0_pay10
  split
  · rename_i h; exact window_left _ _ _ j h f
  · rename_i h; exact (window_right _ _ _ j (by omega) f).trans (headRows _ _ _ f)

end Payloads

/-! ## The first three rows, and the two stores -/

section Rows
variable {α : Type}

/-- A [b] vector viewed as a [1, b] row reads f at (0, f). -/
theorem add1_row (v : S2048.Idx → α) (h : S2048.ShapeCasts S1x2048) (f : Fin 2048) :
    shapeCast S1x2048 v h (ix2 0 f) = v (ix1 f) :=
  shapeCast_apply v h _ _ (by rw [Shape.rowMajor_val_one, Shape.rowMajor_val_two]; show f.val = 0 * 2048 + f.val; omega)

/-- Three one-row pieces stacked: row t of the stack is piece t. -/
theorem stack3_at (a b c : S1x2048.Idx → α) (h : Shape.Concatenates [S1x2048, S1x2048, S1x2048] S3x2048 0) (f : Fin 2048) :
    concatenate S3x2048 0 [⟨S1x2048, a⟩, ⟨S1x2048, b⟩, ⟨S1x2048, c⟩] h (ix2 0 f) = a (ix2 0 f)
    ∧ concatenate S3x2048 0 [⟨S1x2048, a⟩, ⟨S1x2048, b⟩, ⟨S1x2048, c⟩] h (ix2 1 f) = b (ix2 0 f)
    ∧ concatenate S3x2048 0 [⟨S1x2048, a⟩, ⟨S1x2048, b⟩, ⟨S1x2048, c⟩] h (ix2 2 f) = c (ix2 0 f) := by
  refine ⟨?_, ?_, ?_⟩
  · exact concatenate_apply_piece (t := S3x2048) 0 [⟨S1x2048, a⟩, ⟨S1x2048, b⟩, ⟨S1x2048, c⟩] h (ix2 0 f) 0 (by simp) S1x2048 a rfl rfl 0 rfl (ix2 0 f)
      (fun d hd => match d, hd with | ⟨0, _⟩, hd => absurd rfl hd | ⟨1, _⟩, _ => rfl) rfl
  · exact concatenate_apply_piece (t := S3x2048) 0 [⟨S1x2048, a⟩, ⟨S1x2048, b⟩, ⟨S1x2048, c⟩] h (ix2 1 f) 1 (by simp) S1x2048 b rfl rfl 1 rfl (ix2 0 f)
      (fun d hd => match d, hd with | ⟨0, _⟩, hd => absurd rfl hd | ⟨1, _⟩, _ => rfl) rfl
  · exact concatenate_apply_piece (t := S3x2048) 0 [⟨S1x2048, a⟩, ⟨S1x2048, b⟩, ⟨S1x2048, c⟩] h (ix2 2 f) 2 (by simp) S1x2048 c rfl rfl 2 rfl (ix2 0 f)
      (fun d hd => match d, hd with | ⟨0, _⟩, hd => absurd rfl hd | ⟨1, _⟩, _ => rfl) rfl

end Rows

section RowPayloads
variable (v1 : FVec Ideal S1024x2048 .f32) (v7 : FVec Ideal S4x2048 .f32) (v9 : FVec Ideal S2048 .f32) (v12 : FVec Ideal S3x2048 .f32)

/-- The zero row. -/
theorem zeroRow_at (f : Fin 2048) : broadcast S1x2048 (Scalar.ofBits (F := Ideal) .f32 0x00000000#32) (ix2 0 f) = (0 : EReal) :=
  Ideal.ofBits_zero_f32

/-- Row 0 of the tile from the window's rows 0–3. -/
theorem pay11_at (f : Fin 2048) :
    k0_pay11 (F := Ideal) v1 v7 v9 v12 (ix2 0 f)
      = ((((0 + k0_pay10 (F := Ideal) v1 v12 (ix2 0 f) * v7 (ix2 0 f)) + k0_pay10 (F := Ideal) v1 v12 (ix2 1 f) * v7 (ix2 1 f))
          + k0_pay10 (F := Ideal) v1 v12 (ix2 2 f) * v7 (ix2 2 f)) + k0_pay10 (F := Ideal) v1 v12 (ix2 3 f) * v7 (ix2 3 f)) + v9 (ix1 f) := by
  unfold k0_pay11
  simp only [addf_apply, mulf_apply]
  refine congrArg₂ (· + ·) (congrArg₂ (· + ·) (congrArg₂ (· + ·) (congrArg₂ (· + ·) (congrArg₂ (· + ·) ?_ (congrArg₂ (· * ·) ?_ ?_)) (congrArg₂ (· * ·) ?_ ?_)) (congrArg₂ (· * ·) ?_ ?_)) (congrArg₂ (· * ·) ?_ ?_)) ?_
  · exact zeroRow_at f
  · exact winRow 0 _ _ f
  · exact tapRow 0 _ _ f
  · exact winRow 1 _ _ f
  · exact tapRow 1 _ _ f
  · exact winRow 2 _ _ f
  · exact tapRow 2 _ _ f
  · exact winRow 3 _ _ f
  · exact tapRow 3 _ _ f
  · exact add1_row _ _ f

/-- Row 1 of the tile from the window's rows 1–4. -/
theorem pay12_at (f : Fin 2048) :
    k0_pay12 (F := Ideal) v1 v7 v9 v12 (ix2 0 f)
      = ((((0 + k0_pay10 (F := Ideal) v1 v12 (ix2 1 f) * v7 (ix2 0 f)) + k0_pay10 (F := Ideal) v1 v12 (ix2 2 f) * v7 (ix2 1 f))
          + k0_pay10 (F := Ideal) v1 v12 (ix2 3 f) * v7 (ix2 2 f)) + k0_pay10 (F := Ideal) v1 v12 (ix2 4 f) * v7 (ix2 3 f)) + v9 (ix1 f) := by
  unfold k0_pay12
  simp only [addf_apply, mulf_apply]
  refine congrArg₂ (· + ·) (congrArg₂ (· + ·) (congrArg₂ (· + ·) (congrArg₂ (· + ·) (congrArg₂ (· + ·) ?_ (congrArg₂ (· * ·) ?_ ?_)) (congrArg₂ (· * ·) ?_ ?_)) (congrArg₂ (· * ·) ?_ ?_)) (congrArg₂ (· * ·) ?_ ?_)) ?_
  · exact zeroRow_at f
  · exact winRow 1 _ _ f
  · exact tapRow 0 _ _ f
  · exact winRow 2 _ _ f
  · exact tapRow 1 _ _ f
  · exact winRow 3 _ _ f
  · exact tapRow 2 _ _ f
  · exact winRow 4 _ _ f
  · exact tapRow 3 _ _ f
  · exact add1_row _ _ f

/-- The first two terms of row 2. -/
theorem pay13_at (f : Fin 2048) :
    k0_pay13 (F := Ideal) v1 v7 v12 (ix2 0 f)
      = (0 + k0_pay10 (F := Ideal) v1 v12 (ix2 2 f) * v7 (ix2 0 f)) + k0_pay10 (F := Ideal) v1 v12 (ix2 3 f) * v7 (ix2 1 f) := by
  unfold k0_pay13
  simp only [addf_apply, mulf_apply]
  refine congrArg₂ (· + ·) (congrArg₂ (· + ·) ?_ (congrArg₂ (· * ·) ?_ ?_)) (congrArg₂ (· * ·) ?_ ?_)
  · exact zeroRow_at f
  · exact winRow 2 _ _ f
  · exact tapRow 0 _ _ f
  · exact winRow 3 _ _ f
  · exact tapRow 1 _ _ f

/-- The three-row store's payload, row by row: rows 0 and 1 as computed, row 2 completed from the window's rows 4, 5. -/
theorem pay1_at (v46 : FVec Ideal S6x2048 .f32) (v65 v84 v93 : FVec Ideal S1x2048 .f32) (f : Fin 2048) :
    k0_pay1 (F := Ideal) v7 v9 v46 v65 v84 v93 (ix3 0 0 f) = v65 (ix2 0 f)
    ∧ k0_pay1 (F := Ideal) v7 v9 v46 v65 v84 v93 (ix3 0 1 f) = v84 (ix2 0 f)
    ∧ k0_pay1 (F := Ideal) v7 v9 v46 v65 v84 v93 (ix3 0 2 f)
        = ((v93 (ix2 0 f) + v46 (ix2 4 f) * v7 (ix2 2 f)) + v46 (ix2 5 f) * v7 (ix2 3 f)) + v9 (ix1 f) := by
  unfold k0_pay1
  refine ⟨?_, ?_, ?_⟩
  · exact (add1_three _ _ 0 f).trans (stack3_at _ _ _ _ f).1
  · exact (add1_three _ _ 1 f).trans (stack3_at _ _ _ _ f).2.1
  · refine (add1_three _ _ 2 f).trans ((stack3_at _ _ _ _ f).2.2.trans ?_)
    simp only [addf_apply, mulf_apply]
    refine congrArg₂ (· + ·) (congrArg₂ (· + ·) (congrArg₂ (· + ·) rfl (congrArg₂ (· * ·) ?_ ?_)) (congrArg₂ (· * ·) ?_ ?_)) ?_
    · exact winRow 4 _ _ f
    · exact tapRow 2 _ _ f
    · exact winRow 5 _ _ f
    · exact tapRow 3 _ _ f
    · exact add1_row _ _ f

/-- The new cache's store: the tile's last three rows. -/
theorem pay2_at (t : Fin 3) (f : Fin 2048) : k0_pay2 (F := Ideal) v1 (ix3 0 t f) = v1 (ix2 ⟨1021 + t.val, by omega⟩ f) := by
  unfold k0_pay2
  exact (add1_three _ _ t f).trans (tailRows _ _ t f)

end RowPayloads

/-! ## The tile, row by row, as the convolution of its padded rows -/

section Tile
variable (i : grid0.Coords) (x0 : Vec Ideal S1x1024x2048 .f32) (x1 : Vec Ideal S1x8x2048 .f32) (x2 : Vec Ideal S1x3x2048 .f32)
  (x3 : Vec Ideal S4x2048 .f32) (x4 : Vec Ideal S1x2048 .f32)

/-- The tile's rows with the three rows before it in front: row j is a previous row for j < 3, the tile's row
    j - 3 after. -/
def padT (j : ℕ) (hj : j < 1027) (f : Fin 2048) : EReal :=
  if h : j < 3 then prevRows (F := Ideal) i x1 x2 (ix2 ⟨j, h⟩ f) else x0 (ix3 0 ⟨j - 3, by omega⟩ f)

theorem padT_lt (j : ℕ) (hj : j < 1027) (h : j < 3) (f : Fin 2048) :
    padT i x0 x1 x2 j hj f = prevRows (F := Ideal) i x1 x2 (ix2 ⟨j, h⟩ f) := dif_pos h
theorem padT_ge (j : ℕ) (hj : j < 1027) (h : 3 ≤ j) (k : Fin 1024) (hk : k.val = j - 3) (f : Fin 2048) :
    padT i x0 x1 x2 j hj f = x0 (ix3 0 k f) := by
  unfold padT; rw [dif_neg (by omega)]; exact congrArg (fun q => x0 (ix3 0 q f)) (Fin.ext hk.symm)

/-- The convolution at row r of the tile: the four taps against the padded rows r … r + 3, and the bias. -/
def convT (r : Fin 1024) (f : Fin 2048) : EReal :=
  (((padT i x0 x1 x2 r.val (by omega) f * x3 (ix2 0 f) + padT i x0 x1 x2 (r.val + 1) (by omega) f * x3 (ix2 1 f))
      + padT i x0 x1 x2 (r.val + 2) (by omega) f * x3 (ix2 2 f)) + padT i x0 x1 x2 (r.val + 3) (by omega) f * x3 (ix2 3 f)) + x4 (ix2 0 f)

/-- The six-row window is the padded tile's first six rows. -/
theorem win_pad (j : Fin 6) (f : Fin 2048) :
    k0_pay10 (F := Ideal) (k0_pay3 (F := Ideal) x0) (prevRows (F := Ideal) i x1 x2) (ix2 j f) = padT i x0 x1 x2 j.val (by omega) f := by
  rw [window_at]; unfold padT
  split
  · rfl
  · exact pay3_at x0 _ f

/-- Past its third row the tile holds the whole-tile store. -/
theorem tileOut_high (r : Fin 1024) (hr : 3 ≤ r.val) (f : Fin 2048) :
    tileOut (F := Ideal) i x0 x1 x2 x3 x4 (ix3 0 r f)
      = (((x0 (ix3 0 r f) * x3 (ix2 3 f) + x0 (ix3 0 ⟨r.val - 3, by omega⟩ f) * x3 (ix2 0 f))
          + x0 (ix3 0 ⟨r.val - 2, by omega⟩ f) * x3 (ix2 1 f)) + x0 (ix3 0 ⟨r.val - 1, by omega⟩ f) * x3 (ix2 2 f)) + x4 (ix2 0 f) := by
  unfold tileOut tilePieces
  rw [View.canon_cons_of_not_mem _ _ (by
    rw [Rect.mem_set_unit]; intro h
    have h1 := (h 1).2
    have : r.val < 0 + 3 := h1
    omega)]
  rw [View.canon_unit_zero zeros3, pay9_at, pay7_at x0 x3 r hr f, pay8_at]

/-- On its first three rows the tile holds the later, three-row store. -/
theorem tileOut_low (t : Fin 3) (f : Fin 2048) :
    tileOut (F := Ideal) i x0 x1 x2 x3 x4 (ix3 0 ⟨t.val, by omega⟩ f)
      = k0_pay1 (F := Ideal) (k0_pay4 (F := Ideal) x3) (k0_pay5 (F := Ideal) x4) (k0_pay10 (F := Ideal) (k0_pay3 (F := Ideal) x0) (prevRows (F := Ideal) i x1 x2))
          (k0_pay11 (F := Ideal) (k0_pay3 (F := Ideal) x0) (k0_pay4 (F := Ideal) x3) (k0_pay5 (F := Ideal) x4) (prevRows (F := Ideal) i x1 x2))
          (k0_pay12 (F := Ideal) (k0_pay3 (F := Ideal) x0) (k0_pay4 (F := Ideal) x3) (k0_pay5 (F := Ideal) x4) (prevRows (F := Ideal) i x1 x2))
          (k0_pay13 (F := Ideal) (k0_pay3 (F := Ideal) x0) (k0_pay4 (F := Ideal) x3) (prevRows (F := Ideal) i x1 x2)) (ix3 0 t f) := by
  unfold tileOut tilePieces
  have e : (ix3 0 ⟨t.val, by omega⟩ f : S1x1024x2048.Idx)
      = (Rect.unit (s := S1x1024x2048) ![0, 0, 0] S1x3x2048.size inb_S1x1024x2048_S1x3x2048_0_0_0).emb (ix3 0 t f) := by
    funext a; apply Fin.ext
    match a with
    | ⟨0, _⟩ => show 0 = 0 + 1 * 0; rfl
    | ⟨1, _⟩ => show t.val = 0 + 1 * t.val; omega
    | ⟨2, _⟩ => show f.val = 0 + 1 * f.val; omega
  rw [e, View.canon_cons_emb]

/-- THE TILE: at every row and feature, the convolution of its padded rows. -/
theorem tileOut_at (r : Fin 1024) (f : Fin 2048) :
    tileOut (F := Ideal) i x0 x1 x2 x3 x4 (ix3 0 r f) = convT i x0 x1 x2 x3 x4 r f := by
  by_cases hr : 3 ≤ r.val
  · rw [tileOut_high i x0 x1 x2 x3 x4 r hr f]
    unfold convT
    rw [padT_ge i x0 x1 x2 r.val (by omega) hr ⟨r.val - 3, by omega⟩ rfl f,
      padT_ge i x0 x1 x2 (r.val + 1) (by omega) (by omega) ⟨r.val - 2, by omega⟩ (by show r.val - 2 = r.val + 1 - 3; omega) f,
      padT_ge i x0 x1 x2 (r.val + 2) (by omega) (by omega) ⟨r.val - 1, by omega⟩ (by show r.val - 1 = r.val + 2 - 3; omega) f,
      padT_ge i x0 x1 x2 (r.val + 3) (by omega) (by omega) r (by omega) f]
    ac_rfl
  · obtain ⟨rv, hrv⟩ := r
    have hlt : rv < 3 := by simpa using hr
    have key := tileOut_low i x0 x1 x2 x3 x4 ⟨rv, hlt⟩ f
    have P1 := pay1_at (k0_pay4 (F := Ideal) x3) (k0_pay5 (F := Ideal) x4) (k0_pay10 (F := Ideal) (k0_pay3 (F := Ideal) x0) (prevRows (F := Ideal) i x1 x2))
      (k0_pay11 (F := Ideal) (k0_pay3 (F := Ideal) x0) (k0_pay4 (F := Ideal) x3) (k0_pay5 (F := Ideal) x4) (prevRows (F := Ideal) i x1 x2))
      (k0_pay12 (F := Ideal) (k0_pay3 (F := Ideal) x0) (k0_pay4 (F := Ideal) x3) (k0_pay5 (F := Ideal) x4) (prevRows (F := Ideal) i x1 x2))
      (k0_pay13 (F := Ideal) (k0_pay3 (F := Ideal) x0) (k0_pay4 (F := Ideal) x3) (prevRows (F := Ideal) i x1 x2)) f
    have W := pay4_eq x3
    have B := pay5_at x4 f
    have w0 := win_pad i x0 x1 x2 0 f
    have w1 := win_pad i x0 x1 x2 1 f
    have w2 := win_pad i x0 x1 x2 2 f
    have w3 := win_pad i x0 x1 x2 3 f
    have w4 := win_pad i x0 x1 x2 4 f
    have w5 := win_pad i x0 x1 x2 5 f
    interval_cases rv
    · refine key.trans (P1.1.trans ?_)
      rw [pay11_at, w0, w1, w2, w3, W, B]
      show _ = (((padT i x0 x1 x2 0 _ f * _ + padT i x0 x1 x2 1 _ f * _) + padT i x0 x1 x2 2 _ f * _) + padT i x0 x1 x2 3 _ f * _) + _
      rw [zero_add]
      rfl
    · refine key.trans (P1.2.1.trans ?_)
      rw [pay12_at, w1, w2, w3, w4, W, B]
      show _ = (((padT i x0 x1 x2 1 _ f * _ + padT i x0 x1 x2 2 _ f * _) + padT i x0 x1 x2 3 _ f * _) + padT i x0 x1 x2 4 _ f * _) + _
      rw [zero_add]
      rfl
    · refine key.trans (P1.2.2.trans ?_)
      rw [pay13_at, w2, w3, w4, w5, W, B]
      show _ = (((padT i x0 x1 x2 2 _ f * _ + padT i x0 x1 x2 3 _ f * _) + padT i x0 x1 x2 4 _ f * _) + padT i x0 x1 x2 5 _ f * _) + _
      rw [zero_add]
      rfl

/-- THE NEW CACHE at a last tile: the tile's last three rows. -/
theorem cacheOut_at (t : Fin 3) (f : Fin 2048) :
    cacheOut (F := Ideal) x0 (ix3 0 t f) = x0 (ix3 0 ⟨1021 + t.val, by omega⟩ f) := by
  unfold cacheOut cachePieces
  rw [View.canon_unit_zero zeros3, pay2_at, pay3_at]

end Tile

end Cert.KernelIdeal.Hand

end
-- ==== Proof.LaunchIdeal.lean ====
/-
  The launch of the convolution program: @main as three segments — the four host operations that lay the
  weight, the bias and the cache out for the kernel; the kernel region; the one host operation that transposes the
  new cache back — and what every final memory holds.

  The array of x is read through two windows (the tile, and the eight rows before it), so on entering the
  region its buffer's full share is cut in two halves, one per window; both halves come back unchanged, since an
  input array is never written. The output array ends at the pipeline's account of its write-backs, the new
  cache's array likewise, and the last host operation's result is the transpose of that.
-/
import proofs.«137967_j58746562674739_2_alg».proof.Proof.DataIdeal
import Idealize.ShloMosaic.Lib.Pipeline.Regions
import Idealize.ShloMosaic.Lib.Pipeline.Frame
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays as points-tos -/

/-- The pipeline's arrays at contents `G`, window by window: x in two halves, the rest whole. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v3) ↦{fullShare} G 2) ∗ (((c : Thread nD τ).loc main_v1) ↦{fullShare} G 3)
          ∗ (((c : Thread nD τ).loc main_v2) ↦{fullShare} G 4) ∗ (((c : Thread nD τ).loc main_v4_0) ↦{fullShare} G 5)
          ∗ (((c : Thread nD τ).loc main_v4_1) ↦{fullShare} G 6)) := by
  unfold Dat.arrays
  rw [bigSep_W0]
  have h0 : ((cfg0.win 0).arr.view.loc (c : Thread nD τ) ↦[(cfg0.win 0).arr.view.set]{(dats m 0 c).share 0} G 0 : sProp 𝕄)
      = ((c : Thread nD τ).loc main_arg0) ↦{fullShare.left} G 0 := by
    rw [(arr_whole0 0).set_eq_univ]; rfl
  have h1 : ((cfg0.win 1).arr.view.loc (c : Thread nD τ) ↦[(cfg0.win 1).arr.view.set]{(dats m 0 c).share 1} G 1 : sProp 𝕄)
      = ((c : Thread nD τ).loc main_arg0) ↦{fullShare.right} G 1 := by
    rw [(arr_whole0 1).set_eq_univ]; rfl
  have h2 : ((cfg0.win 2).arr.view.loc (c : Thread nD τ) ↦[(cfg0.win 2).arr.view.set]{(dats m 0 c).share 2} G 2 : sProp 𝕄)
      = ((c : Thread nD τ).loc main_v3) ↦{fullShare} G 2 := by
    rw [(arr_whole0 2).set_eq_univ]; rfl
  have h3 : ((cfg0.win 3).arr.view.loc (c : Thread nD τ) ↦[(cfg0.win 3).arr.view.set]{(dats m 0 c).share 3} G 3 : sProp 𝕄)
      = ((c : Thread nD τ).loc main_v1) ↦{fullShare} G 3 := by
    rw [(arr_whole0 3).set_eq_univ]; rfl
  have h4 : ((cfg0.win 4).arr.view.loc (c : Thread nD τ) ↦[(cfg0.win 4).arr.view.set]{(dats m 0 c).share 4} G 4 : sProp 𝕄)
      = ((c : Thread nD τ).loc main_v2) ↦{fullShare} G 4 := by
    rw [(arr_whole0 4).set_eq_univ]; rfl
  have h5 : ((cfg0.win 5).arr.view.loc (c : Thread nD τ) ↦[(cfg0.win 5).arr.view.set]{(dats m 0 c).share 5} G 5 : sProp 𝕄)
      = ((c : Thread nD τ).loc main_v4_0) ↦{fullShare} G 5 := by
    rw [(arr_whole0 5).set_eq_univ]; rfl
  have h6 : ((cfg0.win 6).arr.view.loc (c : Thread nD τ) ↦[(cfg0.win 6).arr.view.set]{(dats m 0 c).share 6} G 6 : sProp 𝕄)
      = ((c : Thread nD τ).loc main_v4_1) ↦{fullShare} G 6 := by
    rw [(arr_whole0 6).set_eq_univ]; rfl
  rw [h0, h1, h2, h3, h4, h5, h6]

/-- The distinct buffers behind the windows' arrays, each whole. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v3) ↦{fullShare} W main_v3)
          ∗ (((c : Thread nD τ).loc main_v1) ↦{fullShare} W main_v1) ∗ (((c : Thread nD τ).loc main_v2) ↦{fullShare} W main_v2)
          ∗ (((c : Thread nD τ).loc main_v4_0) ↦{fullShare} W main_v4_0) ∗ (((c : Thread nD τ).loc main_v4_1) ↦{fullShare} W main_v4_1)) := by
  unfold Pipeline.arrBufs
  exact bigSep_eq_bigSepL_of_eq [main_arg0, main_v3, main_v1, main_v2, main_v4_0, main_v4_1] (by decide) (by decide) _

/-- The unscoped buffers that are no window's array, at contents `W`. -/
abbrev restZ (c : Dev nD) (W : (b : Ref sig .tc) → Buf (Elt F) ((c : Thread nD τ).loc b)) : sProp 𝕄 :=
  iprop((((c : Thread nD τ).loc main_arg1) ↦{fullShare} W main_arg1) ∗ (((c : Thread nD τ).loc main_arg2) ↦{fullShare} W main_arg2)
    ∗ (((c : Thread nD τ).loc main_arg3) ↦{fullShare} W main_arg3) ∗ (((c : Thread nD τ).loc main_v0) ↦{fullShare} W main_v0)
    ∗ (((c : Thread nD τ).loc main_v5) ↦{fullShare} W main_v5))

/-- ENTRY: the core's unscoped buffers as the host prefix left them are the pipeline's arrays at their entry
    contents — the buffer of x cut in its two halves — and the rest. -/
theorem entry_split (c : Dev nD) :
    (unscopedBufs c (V m c) : sProp 𝕄) ⊢ iprop((dats m 0 c).arrays ((dats m 0 c).arrAt · 0) ∗ restZ c (V m c)) := by
  rw [Pipeline.unscopedBufs_split₀ cfgs 0 winFacts₀0.arr_unscoped c (V m c), unscopedRest0_eq, arrBufs_chain, arrays_chain]
  iintro ⟨⟨H0, H3, H1, H2, H40, H41⟩, Hrest⟩
  ihave H0' := (pointsTo_share (PosShare.mem_left_op_right fullShare)).1 $$ H0
  icases H0' with ⟨H0a, H0b⟩
  isplitr [Hrest]
  · isplitl [H0a]; · iexact H0a
    isplitl [H0b]; · iexact H0b
    isplitl [H3]; · iexact H3
    isplitl [H1]; · iexact H1
    isplitl [H2]; · iexact H2
    isplitl [H40]; · iexact H40
    iexact H41
  · iexact Hrest

/-! ## The segments of @main -/

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
/-- What rides beside the buffers through the host operations: the core's `owes`. -/
abbrev R (c : Dev nD) : sProp 𝕄 := iprop(∃ W, owes (c : Thread nD τ) (0 : CellTallies nD τ sig Unit) W)

/-- THE FIRST HOST SEGMENT: the four operations before the region, over all the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The two buffers the last host operation touches. -/
def S1 : Finset (DevRef τ sig) := {Proc.devRef .tc main_v4_1, Proc.devRef .tc main_v5}

/-- The buffers when the region is left, as far as the last operation reads them: the new cache's array at the
    pipeline's account of its write-backs, every other buffer as the host prefix left it. -/
def V1 (c : Dev nD) : Valuation τ sig (Elt F) := fun b =>
  if h : Proc.devRef .tc main_v4_1 = b then cast (congrArg (fun b' : DevRef τ sig => b'.ty.Contents (Elt F)) h) ((dats m 0 c).arrAt 6 cfg0.N)
  else StableHlo.after hostOps0 (V₀ m c) b

theorem V1_cache (c : Dev nD) : V1 m c (Proc.devRef .tc main_v4_1) = (dats m 0 c).arrAt 6 cfg0.N := by
  unfold V1; rw [dif_pos rfl]; rfl

theorem V1_v5 (c : Dev nD) : V1 m c (Proc.devRef .tc main_v5) = V m c main_v5 := by
  unfold V1; rw [dif_neg (StableHlo.devRef_ne_of_ne (by decide))]

/-- What bypasses the last host operation: the other arrays at their final contents, the arguments and the
    reshaped weight as the host prefix left them, the core's `owes`. -/
abbrev R1 (c : Dev nD) : sProp 𝕄 :=
  iprop((((c : Thread nD τ).loc main_arg0) ↦{fullShare.left} (dats m 0 c).arrAt 0 cfg0.N) ∗ (((c : Thread nD τ).loc main_arg0) ↦{fullShare.right} (dats m 0 c).arrAt 1 cfg0.N)
    ∗ (((c : Thread nD τ).loc main_v3) ↦{fullShare} (dats m 0 c).arrAt 2 cfg0.N) ∗ (((c : Thread nD τ).loc main_v1) ↦{fullShare} (dats m 0 c).arrAt 3 cfg0.N)
    ∗ (((c : Thread nD τ).loc main_v2) ↦{fullShare} (dats m 0 c).arrAt 4 cfg0.N) ∗ (((c : Thread nD τ).loc main_v4_0) ↦{fullShare} (dats m 0 c).arrAt 5 cfg0.N)
    ∗ (((c : Thread nD τ).loc main_arg1) ↦{fullShare} V m c main_arg1) ∗ (((c : Thread nD τ).loc main_arg2) ↦{fullShare} V m c main_arg2)
    ∗ (((c : Thread nD τ).loc main_arg3) ↦{fullShare} V m c main_arg3) ∗ (((c : Thread nD τ).loc main_v0) ↦{fullShare} V m c main_v0)
    ∗ R c)

/-- THE LAST HOST SEGMENT: the transpose of the new cache, over its two buffers. -/
def seg1 : Pipeline.HostSeg (Name := ℕ) (U := UR sig nD τ) (pcfgs (F := F)) defs₀ 𝒱₀ L lv :=
  Pipeline.HostSeg.ofOps _ _ _ _ _ S1 hostOps1
    (by intro op h; rcases List.mem_singleton.mp h with rfl; rw [StableHlo.unary_bufs]; exact Finset.Subset.refl _)
    (by intro _ h; (repeat (cases h with | head => rfl | tail _ h => ?_)); exact nomatch h) (V1 m) (R1 m)

/-! ## The region -/

theorem v41_not_mem : (Proc.devRef .tc main_v4_1 : DevRef τ sig) ∉ ({Proc.devRef .tc main_v5} : Finset (DevRef τ sig)) :=
  Finset.notMem_singleton.mpr (StableHlo.devRef_ne_of_ne (by decide))

/-- The two buffers of the last host operation, held at a valuation, one by one. -/
theorem held_S1 (c : Dev nD) (W : Valuation τ sig (Elt F)) :
    (StableHlo.held (c : Thread nD τ) S1 W : sProp 𝕄)
      = iprop((((c : Thread nD τ).1, Proc.devRef .tc main_v4_1) ↦{fullShare} W (Proc.devRef .tc main_v4_1))
          ∗ (((c : Thread nD τ).1, Proc.devRef .tc main_v5) ↦{fullShare} W (Proc.devRef .tc main_v5))) := by
  unfold StableHlo.held S1
  rw [bigSep_insert v41_not_mem, bigSep_singleton]
  rfl

set_option backward.isDefEq.respectTransparency.types false in
/-- THE REGION: entered from what the first host segment left — the windows' arrays into the pipeline (x in two
    halves), everything else bypassing —, left with the arrays at their final contents, the new cache's array and
    the buffer of the last result set apart for the last host segment. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) S1 (V1 m c) ∗ R1 m c)
  X c := iprop(emp)
  Y c := iprop(emp)
  Z c := restZ c (V m c)
  hentry c := by
    rw [show StableHlo.held (c : Thread nD τ) (Pipeline.ucRefs τ sig) (StableHlo.after hostOps0 (V₀ m c)) = unscopedBufs c (V m c) from (Pipeline.unscopedBufs_held c _).symm]
    iintro ⟨⟨Hub, HO⟩, -, -⟩
    ihave H := (entry_split m c) $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr [Hz]; · iempintro
    iexact Hz
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr [Hr]; · iempintro
    isplitr [Hr]; · iempintro
    iexact Hr
  hexit c := by
    rw [arrays_chain]
    iintro ⟨⟨H0, H1, H2, H3, H4, H5, H6⟩, HO, -, ⟨Z1, Z2, Z3, Z0, Z5⟩⟩
    imodintro
    isplitl [H6 Z5]
    · rw [held_S1, V1_cache, V1_v5]
      isplitl [H6]; · iexact H6
      iexact Z5
    isplitl [H0]; · iexact H0
    isplitl [H1]; · iexact H1
    isplitl [H2]; · iexact H2
    isplitl [H3]; · iexact H3
    isplitl [H4]; · iexact H4
    isplitl [H5]; · iexact H5
    isplitl [Z1]; · iexact Z1
    isplitl [Z2]; · iexact Z2
    isplitl [Z3]; · iexact Z3
    isplitl [Z0]; · iexact Z0
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-! ## The run -/

/-- No host operation before the region writes an argument. -/
theorem not_written (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

theorem V_arg0 (c : Dev nD) : V m c main_arg0 = m ((c : Thread nD τ).loc main_arg0) :=
  StableHlo.after_of_forall_not_mem (b := Proc.devRef .tc main_arg0) hostOps0 (V₀ m c) (not_written main_arg0 (by decide))
theorem V_arg1 (c : Dev nD) : V m c main_arg1 = m ((c : Thread nD τ).loc main_arg1) :=
  StableHlo.after_of_forall_not_mem (b := Proc.devRef .tc main_arg1) hostOps0 (V₀ m c) (not_written main_arg1 (by decide))
theorem V_arg2 (c : Dev nD) : V m c main_arg2 = m ((c : Thread nD τ).loc main_arg2) :=
  StableHlo.after_of_forall_not_mem (b := Proc.devRef .tc main_arg2) hostOps0 (V₀ m c) (not_written main_arg2 (by decide))
theorem V_arg3 (c : Dev nD) : V m c main_arg3 = m ((c : Thread nD τ).loc main_arg3) :=
  StableHlo.after_of_forall_not_mem (b := Proc.devRef .tc main_arg3) hostOps0 (V₀ m c) (not_written main_arg3 (by decide))

/-- The launch element: the pipeline library's at the staging cells. -/
def u₀ : UR sig nD τ := initOf (Pipeline.cells cfgs cellOf_inj) (Pipeline.launchToks cfgs cellOf_inj)

/-- What the last segment leaves, the core's `owes` apart. -/
abbrev Tₙ (c : Dev nD) : sProp 𝕄 :=
  iprop(StableHlo.held (c : Thread nD τ) S1 (StableHlo.after hostOps1 (V1 m c)) ∗
    (((c : Thread nD τ).loc main_arg0) ↦{fullShare.left} (dats m 0 c).arrAt 0 cfg0.N) ∗ (((c : Thread nD τ).loc main_arg0) ↦{fullShare.right} (dats m 0 c).arrAt 1 cfg0.N)
    ∗ (((c : Thread nD τ).loc main_v3) ↦{fullShare} (dats m 0 c).arrAt 2 cfg0.N) ∗ (((c : Thread nD τ).loc main_v1) ↦{fullShare} (dats m 0 c).arrAt 3 cfg0.N)
    ∗ (((c : Thread nD τ).loc main_v2) ↦{fullShare} (dats m 0 c).arrAt 4 cfg0.N) ∗ (((c : Thread nD τ).loc main_v4_0) ↦{fullShare} (dats m 0 c).arrAt 5 cfg0.N)
    ∗ (((c : Thread nD τ).loc main_arg1) ↦{fullShare} V m c main_arg1) ∗ (((c : Thread nD τ).loc main_arg2) ↦{fullShare} V m c main_arg2)
    ∗ (((c : Thread nD τ).loc main_arg3) ↦{fullShare} V m c main_arg3) ∗ (((c : Thread nD τ).loc main_v0) ↦{fullShare} V m c main_v0))

/-- What every final memory holds on core `c`: the output array at the pipeline's account of its write-backs,
    the last result at the last host operation's value over the new cache's array, the arguments as launched. -/
def Final (c : Dev nD) (s : MemSt nD τ sig (Elt F)) : Prop :=
  s.mem ((c : Thread nD τ).loc main_v4_0) = (dats m 0 c).arrAt 5 cfg0.N
  ∧ s.mem ((c : Thread nD τ).loc main_v5) = StableHlo.after hostOps1 (V1 m c) (Proc.devRef .tc main_v5)
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)

set_option backward.isDefEq.respectTransparency.types false in
set_option maxHeartbeats 2000000 in
/-- At the compiled mesh, for any float values, from any memory with zero counters: every weakly fair execution of
    @main on the TensorCores terminates, and every final state is as `Final` says. -/
theorem run_main : θ_run defs (onTc (τ := τ) (main (F := F))) ⟨m, fun _ => 0, ρ⟩ (fun r => ∀ c : Dev nD, Final m c r.2) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) S1 (StableHlo.after hostOps1 (V1 m c)) ∗ R1 m c) ⊢ _
      iintro ⟨Hh, H0, H1, H2, H3, H4, H5, Z1, Z2, Z3, Z0, HR⟩
      isplitr [HR]
      · isplitl [Hh]; · iexact Hh
        isplitl [H0]; · iexact H0
        isplitl [H1]; · iexact H1
        isplitl [H2]; · iexact H2
        isplitl [H3]; · iexact H3
        isplitl [H4]; · iexact H4
        isplitl [H5]; · iexact H5
        isplitl [Z1]; · iexact Z1
        isplitl [Z2]; · iexact Z2
        isplitl [Z3]; · iexact Z3
        iexact Z0
      · iexact HR⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => Final m c s)
    (hfin := fun c s' => by
      dsimp only [Tₙ]
      rw [held_S1]
      iintro ⟨⟨⟨H41, H5r⟩, H0, H1, H2, H3, H4, H5, Z1, Z2, Z3, Z0⟩, HSI⟩
      icombine HSI H5 gives %h5
      icombine HSI H5r gives %h5r
      icombine HSI H0 gives %h0
      icombine HSI Z1 gives %h1
      icombine HSI Z2 gives %h2
      icombine HSI Z3 gives %h3
      imodintro
      isplitr
      · ipureintro
        exact ⟨Buf.eq_of_forall_mem_univ h5, Buf.eq_of_forall_mem_univ h5r,
          (Buf.eq_of_forall_mem_univ h0).trans (((dats m 0 c).arrAt_in 0 rfl _).trans ((A_eq m c 0).trans (V_arg0 m c))),
          (Buf.eq_of_forall_mem_univ h1).trans (V_arg1 m c), (Buf.eq_of_forall_mem_univ h2).trans (V_arg2 m c), (Buf.eq_of_forall_mem_univ h3).trans (V_arg3 m c)⟩
      iexact HSI)
    (hQ := fun _ h => h)

end Cert.KernelIdeal.Hand

end
-- ==== Proof.ArrayValue.lean ====
/-
  From tiles to arrays: what the two result arrays hold after the run, as functions of the four arguments.

  Write u for x with the three cached rows in front along the sequence axis: u[b, j, f] is the cache's (b, f, j)
  for j < 3 and x[b, j - 3, f] after. The output is out[b, t, f] = (((u[t]·w₀ + u[t+1]·w₁) + u[t+2]·w₂) + u[t+3]·w₃) + β
  (at batch b and feature f; w_k = weight[f, 0, k], β = bias[f]), and the new cache is x's last three rows,
  transposed. Point 4b + s of the grid writes rows [1024 s, 1024 s + 1024) of batch b; its padded tile is rows
  [1024 s, 1024 s + 1027) of u: for s = 0 the cached rows come through the third window, for s > 0 they are rows
  5–7 of the eight rows of x just before the tile, which the second window fetched. The 32 tiles cover the output;
  the points with s = 3 write the new cache, one batch each.
-/
import proofs.«137967_j58746562674739_2_alg».proof.Proof.TileValue
import proofs.«137967_j58746562674739_2_alg».proof.Proof.LaunchIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx

variable (m : (ℓ : Loc nD τ sig) → Buf (Elt Ideal) ℓ)

/-! ## The arrays the host prefix wrote, at an index -/

/-- The weight, reshaped to [2048, 4] and transposed: tap k at feature f is weight[f, 0, k]. -/
theorem V_taps (c : Dev nD) (k : Fin 4) (f : Fin 2048) :
    V m c main_v1 (ix2 k f) = m ((c : Thread nD τ).loc main_arg2) (ix3 f 0 k) := by
  have e : (V m c main_v1 : S4x2048.Idx → EReal)
      = transpose S4x2048 [1, 0] (shapeCast S2048x4 (m ((c : Thread nD τ).loc main_arg2)) shapeCasts_S2048x1x4_S2048x4) transposes_S2048x4_S4x2048_1_0 := by
    dsimp only [V, hostOps0]; after_results; try rfl
  rw [e]
  refine (transpose_apply [1, 0] _ _ (ix2 k f) (ix2 f k) (fun b => match b with | ⟨0, _⟩ => rfl | ⟨1, _⟩ => rfl)).trans ?_
  exact shapeCast_apply _ _ (ix2 f k) (ix3 f 0 k)
    (by rw [Shape.rowMajor_val_three, Shape.rowMajor_val_two]; show (f.val * 1 + 0) * 4 + k.val = f.val * 4 + k.val; omega)

/-- The bias as a row. -/
theorem V_bias (c : Dev nD) (f : Fin 2048) :
    V m c main_v2 (ix2 0 f) = m ((c : Thread nD τ).loc main_arg3) (ix1 f) := by
  have e : (V m c main_v2 : S1x2048.Idx → EReal) = shapeCast S1x2048 (m ((c : Thread nD τ).loc main_arg3)) shapeCasts_S2048_S1x2048 := by
    dsimp only [V, hostOps0]; after_results; try rfl
  rw [e]
  exact add1_row _ _ f

/-- The cache transposed to rows: row k of batch b at feature f is cache[b, f, k]. -/
theorem V_cache (c : Dev nD) (b : Fin 8) (k : Fin 3) (f : Fin 2048) :
    V m c main_v3 (ix3 b k f) = m ((c : Thread nD τ).loc main_arg1) (ix3 b f k) := by
  have e : (V m c main_v3 : S8x3x2048.Idx → EReal)
      = transpose S8x3x2048 [0, 2, 1] (m ((c : Thread nD τ).loc main_arg1)) transposes_S8x2048x3_S8x3x2048_0_2_1 := by
    dsimp only [V, hostOps0]; after_results; try rfl
  rw [e]
  exact transpose_apply [0, 2, 1] _ _ (ix3 b k f) (ix3 b f k) (fun a => match a with | ⟨0, _⟩ => rfl | ⟨1, _⟩ => rfl | ⟨2, _⟩ => rfl)

/-! ## The windows' block indices, decided over the grid -/

theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = (if t.val % 4 = 0 then 0 else 128 * (t.val % 4) - 1) ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 4 ∧ win0_5.index t (1 : Fin 3) = t.val % 4 ∧ win0_5.index t (2 : Fin 3) = 0
    ∧ win0_6.index t (0 : Fin 3) = t.val / 4 ∧ win0_6.index t (1 : Fin 3) = 0 ∧ win0_6.index t (2 : Fin 3) = 0
    ∧ (grid0.coords t 1).val = t.val % 4 :=
  (by decide +kernel : ∀ t : Fin grid0.N, _)

theorem t_lt (t : Fin cfg0.N) : t.val < 32 := lt_of_lt_of_eq t.isLt N_0

/-! ## The windows' blocks, as elements of the argument arrays -/

section Blocks
variable (c : Dev nD) (t : Fin cfg0.N)

/-- The tile of x at point t = 4b + s: rows 1024 s … of batch b. -/
theorem tile_blk (r : Fin 1024) (f : Fin 2048) :
    iblk m c 0 t (ix3 0 r f)
      = m ((c : Thread nD τ).loc main_arg0) (ix3 ⟨t.val / 4, by have := t_lt t; omega⟩ ⟨1024 * (t.val % 4) + r.val, by have := t_lt t; omega⟩ f) := by
  obtain ⟨e0, e1, e2, -⟩ := idx_facts t
  show V m c main_arg0 (((cfg0.win 0).blk t).view.emb (ix3 0 r f)) = _
  rw [V_arg0]
  refine congrArg _ (funext fun a => Fin.ext ?_)
  match a with
  | ⟨0, _⟩ => show win0_0.index t (0 : Fin 3) * 1 + 1 * 0 = t.val / 4; omega
  | ⟨1, _⟩ => show win0_0.index t (1 : Fin 3) * 1024 + 1 * r.val = 1024 * (t.val % 4) + r.val; omega
  | ⟨2, _⟩ => show win0_0.index t (2 : Fin 3) * 2048 + 1 * f.val = f.val; omega

/-- The eight rows before the tile, at a tile that is not the first of its sequence: rows 1024 s - 8 … of batch b. -/
theorem halo_blk (hs : t.val % 4 ≠ 0) (k : Fin 8) (f : Fin 2048) :
    iblk m c 1 t (ix3 0 k f)
      = m ((c : Thread nD τ).loc main_arg0) (ix3 ⟨t.val / 4, by have := t_lt t; omega⟩ ⟨1024 * (t.val % 4) - 8 + k.val, by have := t_lt t; omega⟩ f) := by
  obtain ⟨-, -, -, e0, e1, e2, -⟩ := idx_facts t
  rw [if_neg hs] at e1
  show V m c main_arg0 (((cfg0.win 1).blk t).view.emb (ix3 0 k f)) = _
  rw [V_arg0]
  refine congrArg _ (funext fun a => Fin.ext ?_)
  match a with
  | ⟨0, _⟩ => show win0_1.index t (0 : Fin 3) * 1 + 1 * 0 = t.val / 4; omega
  | ⟨1, _⟩ => show win0_1.index t (1 : Fin 3) * 8 + 1 * k.val = 1024 * (t.val % 4) - 8 + k.val; omega
  | ⟨2, _⟩ => show win0_1.index t (2 : Fin 3) * 2048 + 1 * f.val = f.val; omega

/-- The cached rows of batch b. -/
theorem cache_blk (k : Fin 3) (f : Fin 2048) :
    iblk m c 2 t (ix3 0 k f) = m ((c : Thread nD τ).loc main_arg1) (ix3 ⟨t.val / 4, by have := t_lt t; omega⟩ f k) := by
  obtain ⟨-, -, -, -, -, -, e0, e1, e2, -⟩ := idx_facts t
  rw [← V_cache m c ⟨t.val / 4, by have := t_lt t; omega⟩ k f]
  show V m c main_v3 (((cfg0.win 2).blk t).view.emb (ix3 0 k f)) = _
  refine congrArg _ (funext fun a => Fin.ext ?_)
  match a with
  | ⟨0, _⟩ => show win0_2.index t (0 : Fin 3) * 1 + 1 * 0 = t.val / 4; omega
  | ⟨1, _⟩ => show win0_2.index t (1 : Fin 3) * 3 + 1 * k.val = k.val; omega
  | ⟨2, _⟩ => show win0_2.index t (2 : Fin 3) * 2048 + 1 * f.val = f.val; omega

/-- The four tap rows. -/
theorem taps_blk (k : Fin 4) (f : Fin 2048) :
    iblk m c 3 t (ix2 k f) = m ((c : Thread nD τ).loc main_arg2) (ix3 f 0 k) := by
  obtain ⟨-, -, -, -, -, -, -, -, -, e0, e1, -⟩ := idx_facts t
  rw [← V_taps m c k f]
  show V m c main_v1 (((cfg0.win 3).blk t).view.emb (ix2 k f)) = _
  refine congrArg _ (funext fun a => Fin.ext ?_)
  match a with
  | ⟨0, _⟩ => show win0_3.index t (0 : Fin 2) * 4 + 1 * k.val = k.val; omega
  | ⟨1, _⟩ => show win0_3.index t (1 : Fin 2) * 2048 + 1 * f.val = f.val; omega

/-- The bias row. -/
theorem bias_blk (f : Fin 2048) :
    iblk m c 4 t (ix2 0 f) = m ((c : Thread nD τ).loc main_arg3) (ix1 f) := by
  obtain ⟨-, -, -, -, -, -, -, -, -, -, -, e0, e1, -⟩ := idx_facts t
  rw [← V_bias m c f]
  show V m c main_v2 (((cfg0.win 4).blk t).view.emb (ix2 0 f)) = _
  refine congrArg _ (funext fun a => Fin.ext ?_)
  match a with
  | ⟨0, _⟩ => show win0_4.index t (0 : Fin 2) * 1 + 1 * 0 = 0; omega
  | ⟨1, _⟩ => show win0_4.index t (1 : Fin 2) * 2048 + 1 * f.val = f.val; omega

end Blocks

/-! ## The specification: the two results as functions of the four arguments -/

section Spec
variable (X : S8x4096x2048.Idx → EReal) (C : S8x2048x3.Idx → EReal) (Wt : S2048x1x4.Idx → EReal) (Bi : S2048.Idx → EReal)

/-- x with the three cached rows in front, along the sequence. -/
def padA (b : Fin 8) (j : ℕ) (hj : j < 4099) (f : Fin 2048) : EReal :=
  if h : j < 3 then C (ix3 b f ⟨j, h⟩) else X (ix3 b ⟨j - 3, by omega⟩ f)

theorem padA_congr (b : Fin 8) {j j' : ℕ} (hj : j < 4099) (hj' : j' < 4099) (h : j = j') (f : Fin 2048) :
    padA X C b j hj f = padA X C b j' hj' f := by subst h; rfl

/-- The causal four-tap convolution with bias, at batch b, position t, feature f. -/
def convAt (b : Fin 8) (t : Fin 4096) (f : Fin 2048) : EReal :=
  (((padA X C b t.val (by omega) f * Wt (ix3 f 0 0) + padA X C b (t.val + 1) (by omega) f * Wt (ix3 f 0 1))
      + padA X C b (t.val + 2) (by omega) f * Wt (ix3 f 0 2)) + padA X C b (t.val + 3) (by omega) f * Wt (ix3 f 0 3)) + Bi (ix1 f)

/-- The output array. -/
def convA : S8x4096x2048.Idx → EReal := fun y =>
  convAt X C Wt Bi ⟨(y 0).val, (y 0).isLt⟩ ⟨(y 1).val, (y 1).isLt⟩ ⟨(y 2).val, (y 2).isLt⟩

/-- The new cache, rows by features: the last three positions of x. -/
def cacheA : S8x3x2048.Idx → EReal := fun y =>
  X (ix3 ⟨(y 0).val, (y 0).isLt⟩ ⟨4093 + (y 1).val, by have h : (y 1).val < 3 := (y 1).isLt; omega⟩ ⟨(y 2).val, (y 2).isLt⟩)

end Spec

/-! ## A tile's padded rows are rows of the padded sequence -/

section Tiles
variable (c : Dev nD) (t : Fin cfg0.N)

theorem pad_tile (j : ℕ) (hj : j < 1027) (f : Fin 2048) :
    padT (grid0.coords t) (iblk m c 0 t) (iblk m c 1 t) (iblk m c 2 t) j hj f
      = padA (m ((c : Thread nD τ).loc main_arg0)) (m ((c : Thread nD τ).loc main_arg1)) ⟨t.val / 4, by have := t_lt t; omega⟩ (1024 * (t.val % 4) + j) (by have := t_lt t; omega) f := by
  have hN := t_lt t
  have hc : (grid0.coords t 1).val = t.val % 4 := (idx_facts t).2.2.2.2.2.2.2.2.2.2.2.2.2.2.2.2.2.2.2
  by_cases h3 : j < 3
  · rw [padT_lt _ _ _ _ j hj h3, prev_at]
    by_cases hs : t.val % 4 = 0
    · rw [if_pos (hc.trans hs), cache_blk]
      unfold padA; rw [dif_pos (by omega)]
      exact congrArg (fun q : Fin 3 => (m ((c : Thread nD τ).loc main_arg1)) (ix3 ⟨t.val / 4, by omega⟩ f q)) (Fin.ext (by show j = 1024 * (t.val % 4) + j; omega))
    · rw [if_neg (fun h => hs (hc.symm.trans h)), halo_blk m c t hs]
      unfold padA; rw [dif_neg (by omega)]
      exact congrArg (fun q : Fin 4096 => (m ((c : Thread nD τ).loc main_arg0)) (ix3 ⟨t.val / 4, by omega⟩ q f)) (Fin.ext (by show 1024 * (t.val % 4) - 8 + (5 + j) = 1024 * (t.val % 4) + j - 3; omega))
  · rw [padT_ge _ _ _ _ j hj (by omega) ⟨j - 3, by omega⟩ rfl, tile_blk]
    unfold padA; rw [dif_neg (by omega)]
    exact congrArg (fun q : Fin 4096 => (m ((c : Thread nD τ).loc main_arg0)) (ix3 ⟨t.val / 4, by omega⟩ q f)) (Fin.ext (by show 1024 * (t.val % 4) + (j - 3) = 1024 * (t.val % 4) + j - 3; omega))

/-- THE TILE IS THE CONVOLUTION's: row r of tile t = 4b + s is position 1024 s + r of batch b. -/
theorem conv_tile (r : Fin 1024) (f : Fin 2048) :
    convT (grid0.coords t) (iblk m c 0 t) (iblk m c 1 t) (iblk m c 2 t) (iblk m c 3 t) (iblk m c 4 t) r f
      = convAt (m ((c : Thread nD τ).loc main_arg0)) (m ((c : Thread nD τ).loc main_arg1)) (m ((c : Thread nD τ).loc main_arg2)) (m ((c : Thread nD τ).loc main_arg3)) ⟨t.val / 4, by have := t_lt t; omega⟩ ⟨1024 * (t.val % 4) + r.val, by have := t_lt t; omega⟩ f := by
  have hN := t_lt t
  unfold convT convAt
  refine congrArg₂ (· + ·) (congrArg₂ (· + ·) (congrArg₂ (· + ·) (congrArg₂ (· + ·) (congrArg₂ (· * ·) ?_ ?_) (congrArg₂ (· * ·) ?_ ?_)) (congrArg₂ (· * ·) ?_ ?_)) (congrArg₂ (· * ·) ?_ ?_)) ?_
  · exact pad_tile m c t _ _ f
  · exact taps_blk m c t 0 f
  · exact (pad_tile m c t _ _ f).trans (padA_congr _ _ _ _ _ (by show 1024 * (t.val % 4) + (r.val + 1) = 1024 * (t.val % 4) + r.val + 1; omega) f)
  · exact taps_blk m c t 1 f
  · exact (pad_tile m c t _ _ f).trans (padA_congr _ _ _ _ _ (by show 1024 * (t.val % 4) + (r.val + 2) = 1024 * (t.val % 4) + r.val + 2; omega) f)
  · exact taps_blk m c t 2 f
  · exact (pad_tile m c t _ _ f).trans (padA_congr _ _ _ _ _ (by show 1024 * (t.val % 4) + (r.val + 3) = 1024 * (t.val % 4) + r.val + 3; omega) f)
  · exact taps_blk m c t 3 f
  · exact bias_blk m c t f

/-- Every index of a [1, a, b] block is (0, r, f). -/
theorem blk3_cases {a b : ℕ} (y : (⟨3, ![1, a, b]⟩ : Shape).Idx) : ∃ (r : Fin a) (f : Fin b), y = ix3 (0 : Fin 1) r f :=
  ⟨⟨(y 1).val, (y 1).isLt⟩, ⟨(y 2).val, (y 2).isLt⟩, by
    funext d
    match d with
    | ⟨0, _⟩ => exact Fin.ext (by have h : (y 0).val < 1 := (y 0).isLt; show (y 0).val = 0; omega)
    | ⟨1, _⟩ => rfl
    | ⟨2, _⟩ => rfl⟩

/-- WHAT POINT t WRITES BACK to the output is block t of the convolution of the arguments. -/
theorem flushed5_eq : (dats m 0 c).flushed 5 t = ((cfg0.win 5).blk t).view.read (Elt Ideal) (convA (m ((c : Thread nD τ).loc main_arg0)) (m ((c : Thread nD τ).loc main_arg1)) (m ((c : Thread nD τ).loc main_arg2)) (m ((c : Thread nD τ).loc main_arg3))) := by
  have hN := t_lt t
  obtain ⟨-, -, -, -, -, -, -, -, -, -, -, -, -, e0, e1, e2, -⟩ := idx_facts t
  show (cfg0.win 5).cut (grid0.coords t) ((dats m 0 c).after 5 t) = _
  rw [after0_5]
  funext y
  obtain ⟨r, f, rfl⟩ := blk3_cases (a := 1024) (b := 2048) y
  show tileOut (F := Ideal) (grid0.coords t) (iblk m c 0 t) (iblk m c 1 t) (iblk m c 2 t) (iblk m c 3 t) (iblk m c 4 t) (ix3 0 r f)
    = convA (m ((c : Thread nD τ).loc main_arg0)) (m ((c : Thread nD τ).loc main_arg1)) (m ((c : Thread nD τ).loc main_arg2)) (m ((c : Thread nD τ).loc main_arg3)) (((cfg0.win 5).blk t).view.emb (ix3 0 r f))
  rw [tileOut_at, conv_tile]
  unfold convA
  refine congr (congr (congrArg (convAt (m ((c : Thread nD τ).loc main_arg0)) (m ((c : Thread nD τ).loc main_arg1)) (m ((c : Thread nD τ).loc main_arg2)) (m ((c : Thread nD τ).loc main_arg3))) (Fin.ext ?_)) (Fin.ext ?_)) (Fin.ext ?_)
  · show t.val / 4 = win0_5.index t (0 : Fin 3) * 1 + 1 * 0; omega
  · show 1024 * (t.val % 4) + r.val = win0_5.index t (1 : Fin 3) * 1024 + 1 * r.val; omega
  · show f.val = win0_5.index t (2 : Fin 3) * 2048 + 1 * f.val; omega

end Tiles

/-! ## The cover, and the output array -/

theorem mem_blk5 (t : Fin cfg0.N) (i : S8x4096x2048.Idx) :
    i ∈ ((cfg0.win 5).blk t).view.set ↔ ∀ a : Fin 3, win0_5.index t a * S1x1024x2048.size a ≤ (i a).val ∧ (i a).val < win0_5.index t a * S1x1024x2048.size a + S1x1024x2048.size a := by
  show i ∈ ((View.whole main_v4_0).slice (win0_5.rect t)).set ↔ _
  rw [View.set_slice_whole, Rect.mem_set_unit]
  exact Iff.rfl

/-- Every element of the output is in the block of the point of its batch and its tile. -/
theorem cover5 (c : Dev nD) (i : ((cfg0.win 5).arr.view.loc (c : Thread nD τ)).2.ty.Idx) :
    ∃ t : Fin cfg0.N, (cfg0.win 5).flush t = true ∧ i ∈ ((cfg0.win 5).blk t).view.set := by
  have h0 : (i 0).val < 8 := (i 0).isLt
  have h1 : (i 1).val < 4096 := (i 1).isLt
  have h2 : (i 2).val < 2048 := (i 2).isLt
  let t : Fin cfg0.N := ⟨4 * (i 0).val + (i 1).val / 1024, by rw [show cfg0.N = 32 from N_0]; omega⟩
  have ht : t.val = 4 * (i 0).val + (i 1).val / 1024 := rfl
  obtain ⟨-, -, -, -, -, -, -, -, -, -, -, -, -, e0, e1, e2, -⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 2048 ≤ (i 2).val ∧ (i 2).val < win0_5.index t (2 : Fin 3) * 2048 + 2048; omega

/-- THE OUTPUT ARRAY after the run is the convolution of the arguments. -/
theorem final_out (c : Dev nD) :
    (dats m 0 c).arrAt 5 cfg0.N = convA (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5_eq m c t) (cover5 c)

/-! ## The new cache -/

/-- WHAT A LAST TILE WRITES BACK to the new cache is its batch's block of x's last three positions. -/
theorem flushed6_eq (c : Dev nD) (t : Fin cfg0.N) (hf : (cfg0.win 6).flush t = true) :
    (dats m 0 c).flushed 6 t = ((cfg0.win 6).blk t).view.read (Elt Ideal) (cacheA (m ((c : Thread nD τ).loc main_arg0))) := by
  have hN := t_lt t
  have hs : t.val % 4 = 3 := (flush0_6 t).mp hf
  obtain ⟨-, -, -, -, -, -, -, -, -, -, -, -, -, -, -, -, e0, e1, e2, -⟩ := idx_facts t
  show (cfg0.win 6).cut (grid0.coords t) ((dats m 0 c).after 6 t) = _
  rw [after0_6]
  funext y
  obtain ⟨k, f, rfl⟩ := blk3_cases (a := 3) (b := 2048) y
  show cacheOut (F := Ideal) (iblk m c 0 t) (ix3 0 k f) = cacheA _ (((cfg0.win 6).blk t).view.emb (ix3 0 k f))
  rw [cacheOut_at, tile_blk]
  unfold cacheA
  have hy : k.val < 3 := k.isLt
  refine congrArg _ (funext fun a => Fin.ext ?_)
  match a with
  | ⟨0, _⟩ => show t.val / 4 = win0_6.index t (0 : Fin 3) * 1 + 1 * 0; omega
  | ⟨1, _⟩ => show 1024 * (t.val % 4) + (1021 + k.val) = 4093 + (win0_6.index t (1 : Fin 3) * 3 + 1 * k.val); omega
  | ⟨2, _⟩ => show f.val = win0_6.index t (2 : Fin 3) * 2048 + 1 * f.val; omega

theorem mem_blk6 (t : Fin cfg0.N) (i : S8x3x2048.Idx) :
    i ∈ ((cfg0.win 6).blk t).view.set ↔ ∀ a : Fin 3, win0_6.index t a * S1x3x2048.size a ≤ (i a).val ∧ (i a).val < win0_6.index t a * S1x3x2048.size a + S1x3x2048.size a := by
  show i ∈ ((View.whole main_v4_1).slice (win0_6.rect t)).set ↔ _
  rw [View.set_slice_whole, Rect.mem_set_unit]
  exact Iff.rfl

/-- Every element of the new cache is in the block of its batch's last tile. -/
theorem cover6 (c : Dev nD) (i : ((cfg0.win 6).arr.view.loc (c : Thread nD τ)).2.ty.Idx) :
    ∃ t : Fin cfg0.N, (cfg0.win 6).flush t = true ∧ i ∈ ((cfg0.win 6).blk t).view.set := by
  have h0 : (i 0).val < 8 := (i 0).isLt
  have h1 : (i 1).val < 3 := (i 1).isLt
  have h2 : (i 2).val < 2048 := (i 2).isLt
  let t : Fin cfg0.N := ⟨4 * (i 0).val + 3, by rw [show cfg0.N = 32 from N_0]; omega⟩
  have ht : t.val = 4 * (i 0).val + 3 := rfl
  obtain ⟨-, -, -, -, -, -, -, -, -, -, -, -, -, -, -, -, e0, e1, e2, -⟩ := idx_facts t
  refine ⟨t, (flush0_6 t).mpr (by omega), ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 3 ≤ (i 1).val ∧ (i 1).val < win0_6.index t (1 : Fin 3) * 3 + 3; omega
  | ⟨2, _⟩ => show win0_6.index t (2 : Fin 3) * 2048 ≤ (i 2).val ∧ (i 2).val < win0_6.index t (2 : Fin 3) * 2048 + 2048; omega

/-- THE NEW CACHE'S ARRAY after the run: x's last three positions, rows by features. -/
theorem final_cache (c : Dev nD) : (dats m 0 c).arrAt 6 cfg0.N = cacheA (m ((c : Thread nD τ).loc main_arg0)) :=
  (dats m 0 c).arrAt_eq_of_cover 6 _ (fun t hf => flushed6_eq m c t hf) (cover6 c)

/-- THE LAST RESULT: that array transposed back to features by rows. -/
theorem final_state (c : Dev nD) :
    (StableHlo.after hostOps1 (V1 m c) (Proc.devRef .tc main_v5) : S8x2048x3.Idx → EReal)
      = transpose S8x2048x3 [0, 2, 1] (cacheA (m ((c : Thread nD τ).loc main_arg0))) transposes_S8x3x2048_S8x2048x3_0_2_1 := by
  have e : (StableHlo.after hostOps1 (V1 m c) (Proc.devRef .tc main_v5) : S8x2048x3.Idx → EReal)
      = transpose S8x2048x3 [0, 2, 1] (V1 m c (Proc.devRef .tc main_v4_1)) transposes_S8x3x2048_S8x2048x3_0_2_1 := by
    dsimp only [hostOps1]; after_results; try rfl
  rw [e, V1_cache, final_cache]

end Cert.KernelIdeal.Hand

end
-- ==== Proof.KernelValue.lean ====
/-
  The idealized kernel's run, read: both results at the specification's functions of the arguments.
-/
import proofs.«137967_j58746562674739_2_alg».proof.Proof.ArrayValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

/-- The output array and the new cache after the run, as functions of the launch memory. -/
def outK (m : (ℓ : Loc nD τ sig) → Buf (Elt Ideal) ℓ) (c : Dev nD) : S8x4096x2048.Idx → EReal :=
  convA (m ((c : Thread nD τ).loc main_arg0)) (m ((c : Thread nD τ).loc main_arg1)) (m ((c : Thread nD τ).loc main_arg2)) (m ((c : Thread nD τ).loc main_arg3))
def stateK (m : (ℓ : Loc nD τ sig) → Buf (Elt Ideal) ℓ) (c : Dev nD) : S8x2048x3.Idx → EReal :=
  transpose S8x2048x3 [0, 2, 1] (cacheA (m ((c : Thread nD τ).loc main_arg0))) transposes_S8x3x2048_S8x2048x3_0_2_1

/-- THE KERNEL'S RUN, read: every weakly fair execution ends with the output at the convolution of the arguments,
    the new cache at x's last three positions, the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4_0) = outK m c
      ∧ r.2.mem ((c : Thread nD τ).loc main_v5) = stateK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_out m c), (h c).2.1.trans (final_state m c), (h c).2.2⟩)
    (run_main (F := Ideal) m ρ)

end Cert.KernelIdeal.Hand

end
-- ==== Proof.RefValue.lean ====
/-
  The reference is the same function of the arguments.

  The reference pads x with the transposed cache along the sequence axis, takes its four windows shifted by
  0 … 3 positions, multiplies each by its tap broadcast over batch and position, adds them left to right and adds the
  bias; its new cache is the padded array's last three positions, transposed. Read at an index, the padded array is
  the specification's padded sequence, tap k at feature f is weight[f, 0, k], and the sum is the specification's,
  in its order.
-/
import proofs.«137967_j58746562674739_2_alg».proof.Proof.Gen.ReferenceIdeal.Read
import proofs.«137967_j58746562674739_2_alg».proof.Proof.ArrayValue

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReferenceIdeal Cert.ReferenceIdeal.Gen Cert.ReferenceIdeal.Read
open Idealize.ShloMosaic.ValueIdx
open Cert.KernelIdeal.Hand (padA padA_congr convAt convA cacheA)

variable (X : S8x4096x2048.Idx → EReal) (C : S8x2048x3.Idx → EReal) (Wt : S2048x1x4.Idx → EReal) (Bi : S2048.Idx → EReal)

theorem fadd (a b : EReal) : FloatOps.addf (F := Ideal) (φ := .f32) a b = a + b := rfl
theorem fmul (a b : EReal) : FloatOps.mulf (F := Ideal) (φ := .f32) a b = a * b := rfl

/-- The padded array at (b, j, f): the cache's (b, f, j) for j < 3, x's (b, j - 3, f) after. -/
theorem padded_at (b : Fin 8) (j : ℕ) (hj : j < 4099) (f : Fin 2048) :
    val_main_v1 (F := Ideal) X C (ix3 b ⟨j, hj⟩ f) = padA X C b j hj f := by
  unfold val_main_v1 padA
  split
  · rename_i h
    refine (concatenate_pair_apply_left (t := S8x4099x2048) (s₁ := S8x3x2048) (s₂ := S8x4096x2048) 1 (val_main_v0 (F := Ideal) C) X
      concatenates_S8x3x2048_S8x4096x2048_S8x4099x2048_d1 (ix3 b ⟨j, hj⟩ f) rfl (ix3 b ⟨j, h⟩ f)
      (fun a => match a with | ⟨0, _⟩ => rfl | ⟨1, _⟩ => rfl | ⟨2, _⟩ => rfl)).trans ?_
    rw [val_main_v0_apply]
    exact congrArg C (funext fun a => match a with | ⟨0, _⟩ => rfl | ⟨1, _⟩ => rfl | ⟨2, _⟩ => rfl)
  · rename_i h
    exact concatenate_pair_apply_right (t := S8x4099x2048) (s₁ := S8x3x2048) (s₂ := S8x4096x2048) 1 (val_main_v0 (F := Ideal) C) X
      concatenates_S8x3x2048_S8x4096x2048_S8x4099x2048_d1 (ix3 b ⟨j, hj⟩ f) rfl rfl (ix3 b ⟨j - 3, by omega⟩ f)
      (fun a ha => match a, ha with | ⟨0, _⟩, _ => rfl | ⟨1, _⟩, ha => absurd rfl ha | ⟨2, _⟩, _ => rfl) (by show j - 3 + 3 = j; omega)

/-- A window of the padded array shifted by k positions, at i: the padded sequence at position i₁ + k. -/
theorem shifted_at (k : ℕ) (hk : k ≤ 4096) (i : S8x4096x2048.Idx) (hi : (i 1).val + k < 4099) (j : S8x4099x2048.Idx)
    (h0 : (j 0).val = (i 0).val) (h1 : (j 1).val = k + (i 1).val) (h2 : (j 2).val = (i 2).val) :
    val_main_v1 (F := Ideal) X C j = padA X C ⟨(i 0).val, (i 0).isLt⟩ ((i 1).val + k) hi ⟨(i 2).val, (i 2).isLt⟩ := by
  have e : j = ix3 ⟨(i 0).val, (i 0).isLt⟩ ⟨(i 1).val + k, hi⟩ ⟨(i 2).val, (i 2).isLt⟩ := by
    funext a; apply Fin.ext
    match a with
    | ⟨0, _⟩ => exact h0
    | ⟨1, _⟩ => show (j 1).val = (i 1).val + k; omega
    | ⟨2, _⟩ => exact h2
  rw [e]; exact padded_at X C _ _ _ _

/-- Tap 0, broadcast over batch and position, is weight[f, 0, 0]. -/
theorem tap0_at (i : S8x4096x2048.Idx) :
    val_main_v7 (F := Ideal) Wt i = Wt (ix3 ⟨(i 2).val, (i 2).isLt⟩ 0 0) := by
  rw [val_main_v7_apply, val_main_v6_apply, val_main_v5_apply, val_main_v4_apply, val_main_v2_apply]
  have h2 : (i 2).val < 2048 := (i 2).isLt
  refine congrArg Wt (funext fun a => Fin.ext ?_)
  match a with
  | ⟨0, _⟩ => show ((i 2).val / 1 * 4 + (0 + 0)) / 4 = (i 2).val; omega
  | ⟨1, _⟩ => rfl
  | ⟨2, _⟩ => show ((i 2).val / 1 * 4 + (0 + 0)) % 4 = 0; omega

/-- Tap 1, broadcast over batch and position, is weight[f, 0, 1]. -/
theorem tap1_at (i : S8x4096x2048.Idx) :
    val_main_v13 (F := Ideal) Wt i = Wt (ix3 ⟨(i 2).val, (i 2).isLt⟩ 0 1) := by
  rw [val_main_v13_apply, val_main_v12_apply, val_main_v11_apply, val_main_v10_apply, val_main_v2_apply]
  have h2 : (i 2).val < 2048 := (i 2).isLt
  refine congrArg Wt (funext fun a => Fin.ext ?_)
  match a with
  | ⟨0, _⟩ => show ((i 2).val / 1 * 4 + (1 + 0)) / 4 = (i 2).val; omega
  | ⟨1, _⟩ => rfl
  | ⟨2, _⟩ => show ((i 2).val / 1 * 4 + (1 + 0)) % 4 = 1; omega

/-- Tap 2, broadcast over batch and position, is weight[f, 0, 2]. -/
theorem tap2_at (i : S8x4096x2048.Idx) :
    val_main_v20 (F := Ideal) Wt i = Wt (ix3 ⟨(i 2).val, (i 2).isLt⟩ 0 2) := by
  rw [val_main_v20_apply, val_main_v19_apply, val_main_v18_apply, val_main_v17_apply, val_main_v2_apply]
  have h2 : (i 2).val < 2048 := (i 2).isLt
  refine congrArg Wt (funext fun a => Fin.ext ?_)
  match a with
  | ⟨0, _⟩ => show ((i 2).val / 1 * 4 + (2 + 0)) / 4 = (i 2).val; omega
  | ⟨1, _⟩ => rfl
  | ⟨2, _⟩ => show ((i 2).val / 1 * 4 + (2 + 0)) % 4 = 2; omega

/-- Tap 3, broadcast over batch and position, is weight[f, 0, 3]. -/
theorem tap3_at (i : S8x4096x2048.Idx) :
    val_main_v27 (F := Ideal) Wt i = Wt (ix3 ⟨(i 2).val, (i 2).isLt⟩ 0 3) := by
  rw [val_main_v27_apply, val_main_v26_apply, val_main_v25_apply, val_main_v24_apply, val_main_v2_apply]
  have h2 : (i 2).val < 2048 := (i 2).isLt
  refine congrArg Wt (funext fun a => Fin.ext ?_)
  match a with
  | ⟨0, _⟩ => show ((i 2).val / 1 * 4 + (3 + 0)) / 4 = (i 2).val; omega
  | ⟨1, _⟩ => rfl
  | ⟨2, _⟩ => show ((i 2).val / 1 * 4 + (3 + 0)) % 4 = 3; omega

/-- The bias, broadcast over batch and position. -/
theorem bias_at (i : S8x4096x2048.Idx) : val_main_v31 (F := Ideal) Bi i = Bi (ix1 ⟨(i 2).val, (i 2).isLt⟩) := by
  rw [val_main_v31_apply, val_main_v30_apply]
  exact congrArg Bi (funext fun a => match a with | ⟨0, _⟩ => rfl)

/-- THE REFERENCE'S OUTPUT is the convolution of the arguments. -/
theorem ref_out : val_main_v32 (F := Ideal) X C Wt Bi = convA X C Wt Bi := by
  funext i
  have h1 : (i 1).val < 4096 := (i 1).isLt
  rw [val_main_v32_apply, val_main_v29_apply, val_main_v22_apply, val_main_v15_apply, val_main_v8_apply, val_main_v14_apply, val_main_v21_apply, val_main_v28_apply]
  simp only [fadd, fmul]
  unfold convA convAt
  refine congrArg₂ (· + ·) (congrArg₂ (· + ·) (congrArg₂ (· + ·) (congrArg₂ (· + ·) (congrArg₂ (· * ·) ?_ ?_) (congrArg₂ (· * ·) ?_ ?_)) (congrArg₂ (· * ·) ?_ ?_)) (congrArg₂ (· * ·) ?_ ?_)) ?_
  · exact (val_main_v3_apply (F := Ideal) X C i).trans (shifted_at X C 0 (by omega) i (by omega) (idx_main_v3 i) rfl (by show (i 1).val = 0 + (i 1).val; omega) rfl)
  · exact tap0_at Wt i
  · exact (val_main_v9_apply (F := Ideal) X C i).trans (shifted_at X C 1 (by omega) i (by omega) (idx_main_v9 i) rfl rfl rfl)
  · exact tap1_at Wt i
  · exact (val_main_v16_apply (F := Ideal) X C i).trans (shifted_at X C 2 (by omega) i (by omega) (idx_main_v16 i) rfl rfl rfl)
  · exact tap2_at Wt i
  · exact (val_main_v23_apply (F := Ideal) X C i).trans (shifted_at X C 3 (by omega) i (by omega) (idx_main_v23 i) rfl rfl rfl)
  · exact tap3_at Wt i
  · exact bias_at Bi i

/-- THE REFERENCE'S NEW CACHE before its transpose: x's last three positions, rows by features. -/
theorem ref_cache : val_main_v33 (F := Ideal) X C = cacheA X := by
  funext i
  have h1 : (i 1).val < 3 := (i 1).isLt
  rw [val_main_v33_apply]
  have e : idx_main_v33 i = (ix3 (⟨(i 0).val, (i 0).isLt⟩ : Fin 8) (⟨4096 + (i 1).val, by omega⟩ : Fin 4099) (⟨(i 2).val, (i 2).isLt⟩ : Fin 2048) : S8x4099x2048.Idx) := by
    funext a; match a with | ⟨0, _⟩ => rfl | ⟨1, _⟩ => rfl | ⟨2, _⟩ => rfl
  rw [e]
  refine (padded_at X C _ _ _ _).trans ?_
  unfold padA cacheA
  rw [dif_neg (by omega)]
  exact congrArg (fun q : Fin 4096 => X (ix3 ⟨(i 0).val, (i 0).isLt⟩ q ⟨(i 2).val, (i 2).isLt⟩)) (Fin.ext (by show 4096 + (i 1).val - 3 = 4093 + (i 1).val; omega))

/-- THE REFERENCE'S RUN, read: both results at the specification's functions of the arguments, the arguments
    unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32)
        = convA (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v34)
        = transpose S8x2048x3 [0, 2, 1] (cacheA (m ((c.tc : Thread nD τ).loc main_arg0))) transposes_S8x3x2048_S8x2048x3_0_2_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by rw [val_main_v32_eq]; exact ref_out _ _ _ _),
      (h c).2.1.trans (by rw [val_main_v34_eq]; unfold val_main_v34; rw [ref_cache]), (h c).2.2⟩)
    (Cert.ReferenceIdeal.Value.run (F := Ideal) m ρ)

end Cert.ReferenceIdeal.RefValue

end
-- ==== Proof.lean ====
/-
  A causal depthwise convolution with four taps and a bias over sequences of 4096 positions and 2048 features
  in 8 batches, with a cache of the previous three positions in front, computed tile by tile (1024 positions
  at a time) by a pipelined kernel, against the same convolution written as four shifted slices of the padded
  sequence — and the new cache, the sequence's last three positions.

  Write u for x with the three cached positions in front. Both programs compute, at batch b, position t and
  feature f, the four products u[t + k]·w_k (k = 0 … 3) and the bias, summed: the reference from left to right; the
  kernel, inside a tile, as x[t]·w₃ first and then the three rotations of the tile against w₀, w₁, w₂, and on a
  tile's first three positions from a six-position window, from a zero. On the extended reals addition is commutative
  and associative and zero is neutral, so the two sums are one; no product is moved across a sum, and the inputs'
  finiteness is not used. The kernel reads x through two windows, the tile and the eight positions before it, whose
  last three are the tile's predecessors (the cache stands in for them at a sequence's first tile).

  The frames: each kernel program's run terminates without a fault and leaves the arguments as they were — the
  array of x is held in two halves by its two windows and is never written —, and so does the reference's, which is
  a line of host operations. The idealization rewrote no operation, so nothing is to be preserved.
-/
import proofs.«137967_j58746562674739_2_alg».proof.Defs
import proofs.«137967_j58746562674739_2_alg».proof.Proof.Gen.Kernel
import proofs.«137967_j58746562674739_2_alg».proof.Proof.Gen.KernelIdeal
import proofs.«137967_j58746562674739_2_alg».proof.Proof.Gen.ReferenceIdeal
import proofs.«137967_j58746562674739_2_alg».proof.Proof.Gen.Pre_finite_inputs
import proofs.«137967_j58746562674739_2_alg».proof.Proof.LaunchBits
import proofs.«137967_j58746562674739_2_alg».proof.Proof.KernelValue
import proofs.«137967_j58746562674739_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ =>
  (θ_run Cert.Kernel.defs _ _).mono (fun _ h c => (h c).2.2) (Cert.Kernel.Hand.run_main (F := Bits) m ρ)

/-- So does the idealized kernel. -/
theorem frame_ki : Cert.frame_KernelIdeal := fun m ρ _ =>
  (θ_run Cert.KernelIdeal.defs _ _).mono (fun _ h c => (h c).2.2) (Cert.KernelIdeal.Hand.run_main (F := Ideal) m ρ)

/-- And the reference. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both programs end with the convolution of the arguments and with the
    sequence's last three positions: the same two functions of the same arguments. -/
theorem algebraic : Cert.algebraic_KernelIdeal_ReferenceIdeal := by
  intro m ρ m' ρ' _ hagree
  refine ⟨fun c => Cert.KernelIdeal.Hand.outK m c, fun c => Cert.KernelIdeal.Hand.stateK m c,
    Cert.KernelIdeal.Hand.run_value m ρ, ?_⟩
  refine (θ_run Cert.ReferenceIdeal.defs _ _).mono (fun _ h c => ⟨(h c).1.trans ?_, (h c).2.1.trans ?_, (h c).2.2⟩)
    (Cert.ReferenceIdeal.RefValue.run_value m' ρ')
  · rw [(hagree c).1, (hagree c).2.1, (hagree c).2.2.1, (hagree c).2.2.2]; rfl
  · rw [(hagree c).1]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
